-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v56)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v56) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v83) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1000000 : Shape := ⟨2, ![2, 1000000]⟩
abbrev S2x200000 : Shape := ⟨2, ![2, 200000]⟩
abbrev S128x64 : Shape := ⟨2, ![128, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_v48 : IVec S_ 1) (main_v49 : FVec F S1 .f32) (main_v50 : FVec F S1 .f32) : IVec S_ 1 :=
  let main_v51 : IVec S1 1 := cmpf .olt main_v49 main_v50
  let main_c_19 : IVec S_ 1 := constantI S_ 1 1#1
  let main_v52 : IVec S_ 1 := (fun x v => Host.reduce IntOp.andi x v reducesTo_S1_S_d0 h_S_) main_v51 main_c_19
  let main_v53 : IVec S_ 1 := andi main_v48 main_v52
  main_v53

def fn_part2 {F : FTy → Type} [FloatOps F] (main_arg9 : FVec F S128x64 .f32) (main_arg10 : FVec F S64 .f32) (main_arg11 : FVec F S64x1 .f32) (main_arg12 : FVec F S1 .f32) (main_v33 : IVec S_ 1) : IVec S_ 1 :=
  let main_v34 : FVec F S128x64 .f32 := Host.absf main_arg9
  let main_cst_12 : FVec F S_ .f32 := constant S_ .f32 0x7F800000#32
  let main_v35 : FVec F S128x64 .f32 := broadcastInDim S128x64 ![] bcast_S_S128x64 main_cst_12
  let main_v36 : IVec S128x64 1 := cmpf .olt main_v34 main_v35
  let main_c_13 : IVec S_ 1 := constantI S_ 1 1#1
  let main_v37 : IVec S_ 1 := (fun x v => Host.reduce IntOp.andi x v reducesTo_S128x64_S_d0_1 h_S_) main_v36 main_c_13
  let main_v38 : IVec S_ 1 := andi main_v33 main_v37
  let main_v39 : FVec F S64 .f32 := Host.absf main_arg10
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64x1 .f32 := Host.absf main_arg11
  let main_cst_16 : FVec F S_ .f32 := constant S_ .f32 0x7F800000#32
  let main_v45 : FVec F S64x1 .f32 := broadcastInDim S64x1 ![] bcast_S_S64x1 main_cst_16
  let main_v46 : IVec S64x1 1 := cmpf .olt main_v44 main_v45
  let main_c_17 : IVec S_ 1 := constantI S_ 1 1#1
  let main_v47 : IVec S_ 1 := (fun x v => Host.reduce IntOp.andi x v reducesTo_S64x1_S_d0_1 h_S_) main_v46 main_c_17
  let main_v48 : IVec S_ 1 := andi main_v43 main_v47
  let main_v49 : FVec F S1 .f32 := Host.absf main_arg12
  let main_cst_18 : FVec F S_ .f32 := constant S_ .f32 0x7F800000#32
  let main_v50 : FVec F S1 .f32 := broadcastInDim S1 ![] bcast_S_S1 main_cst_18
  fn_part3 (F := F) main_v48 main_v49 main_v50

def fn_part1 {F : FTy → Type} [FloatOps F] (main_arg6 : FVec F S64x64 .f32) (main_arg7 : FVec F S64x64 .f32) (main_arg8 : FVec F S64 .f32) (main_arg9 : FVec F S128x64 .f32) (main_arg10 : FVec F S64 .f32) (main_arg11 : FVec F S64x1 .f32) (main_arg12 : FVec F S1 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg6
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64x64 .f32 := Host.absf main_arg7
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg9 main_arg10 main_arg11 main_arg12 main_v33

def fn {F : FTy → Type} [FloatOps F] (main_arg0 : FVec F S100000x128 .f32) (main_arg1 : IVec S2x1000000 32) (main_arg2 : IVec S2x200000 32) (main_arg3 : FVec F S128x64 .f32) (main_arg4 : FVec F S128x64 .f32) (main_arg5 : FVec F S64 .f32) (main_arg6 : FVec F S64x64 .f32) (main_arg7 : FVec F S64x64 .f32) (main_arg8 : FVec F S64 .f32) (main_arg9 : FVec F S128x64 .f32) (main_arg10 : FVec F S64 .f32) (main_arg11 : FVec F S64x1 .f32) (main_arg12 : FVec F S1 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg3
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S128x64 .f32 := Host.absf main_arg4
  let main_cst_2 : FVec F S_ .f32 := constant S_ .f32 0x7F800000#32
  let main_v10 : FVec F S128x64 .f32 := broadcastInDim S128x64 ![] bcast_S_S128x64 main_cst_2
  let main_v11 : IVec S128x64 1 := cmpf .olt main_v9 main_v10
  let main_c_3 : IVec S_ 1 := constantI S_ 1 1#1
  let main_v12 : IVec S_ 1 := (fun x v => Host.reduce IntOp.andi x v reducesTo_S128x64_S_d0_1 h_S_) main_v11 main_c_3
  let main_v13 : IVec S_ 1 := andi main_v8 main_v12
  let main_v14 : FVec F S64 .f32 := Host.absf main_arg5
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg6 main_arg7 main_arg8 main_arg9 main_arg10 main_arg11 main_arg12 main_v13 main_v16
-- ==== Kernel.lean ====
abbrev S100000x128 : Shape := ⟨2, ![100000, 128]⟩
abbrev S2x1000000 : Shape := ⟨2, ![2, 1000000]⟩
abbrev S2x200000 : Shape := ⟨2, ![2, 200000]⟩
abbrev S128x64 : Shape := ⟨2, ![128, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S1x1000000 : Shape := ⟨2, ![1, 1000000]⟩
abbrev S1000000 : Shape := ⟨1, ![1000000]⟩
abbrev S_ : Shape := ⟨0, ![]⟩
abbrev S100000 : Shape := ⟨1, ![100000]⟩
abbrev S1000000x1 : Shape := ⟨2, ![1000000, 1]⟩
abbrev S100000x1 : Shape := ⟨2, ![100000, 1]⟩
abbrev S1000000x128 : Shape := ⟨2, ![1000000, 128]⟩
abbrev S1x64 : Shape := ⟨2, ![1, 64]⟩
abbrev S100000x64 : Shape := ⟨2, ![100000, 64]⟩
abbrev S5000x128 : Shape := ⟨2, ![5000, 128]⟩
abbrev S5000x1 : Shape := ⟨2, ![5000, 1]⟩
abbrev S5000x64 : Shape := ⟨2, ![5000, 64]⟩
abbrev S1000000x64 : Shape := ⟨2, ![1000000, 64]⟩
abbrev S1x200000 : Shape := ⟨2, ![1, 200000]⟩
abbrev S200000 : Shape := ⟨1, ![200000]⟩
abbrev S200000x1 : Shape := ⟨2, ![200000, 1]⟩
abbrev S200000x64 : Shape := ⟨2, ![200000, 64]⟩
abbrev S1x1 : Shape := ⟨2, ![1, 1]⟩
abbrev S10000x64 : Shape := ⟨2, ![10000, 64]⟩
abbrev S10000x1 : Shape := ⟨2, ![10000, 1]⟩

abbrev nBuf : Space → Nat
  | .hbm => 82
  | .vmem => 33
  | .smem => 0
  | _ => 0

abbrev bufTy : (tb : Table) → Fin (tcTables nBuf tb) → BufTy
  | .hbm, ⟨0, _⟩ => ⟨S100000x128, .f32⟩
  | .hbm, ⟨1, _⟩ => ⟨S2x1000000, .i32⟩
  | .hbm, ⟨2, _⟩ => ⟨S2x200000, .i32⟩
  | .hbm, ⟨3, _⟩ => ⟨S128x64, .f32⟩
  | .hbm, ⟨4, _⟩ => ⟨S128x64, .f32⟩
  | .hbm, ⟨5, _⟩ => ⟨S64, .f32⟩
  | .hbm, ⟨6, _⟩ => ⟨S64x64, .f32⟩
  | .hbm, ⟨7, _⟩ => ⟨S64x64, .f32⟩
  | .hbm, ⟨8, _⟩ => ⟨S64, .f32⟩
  | .hbm, ⟨9, _⟩ => ⟨S128x64, .f32⟩
  | .hbm, ⟨10, _⟩ => ⟨S64, .f32⟩
  | .hbm, ⟨11, _⟩ => ⟨S64x1, .f32⟩
  | .hbm, ⟨12, _⟩ => ⟨S1, .f32⟩
  | .hbm, ⟨13, _⟩ => ⟨S1x1000000, .i32⟩
  | .hbm, ⟨14, _⟩ => ⟨S1000000, .i32⟩
  | .hbm, ⟨15, _⟩ => ⟨S1x1000000, .i32⟩
  | .hbm, ⟨16, _⟩ => ⟨S1000000, .i32⟩
  | .hbm, ⟨17, _⟩ => ⟨S_, .f32⟩
  | .hbm, ⟨18, _⟩ => ⟨S1000000, .f32⟩
  | .hbm, ⟨19, _⟩ => ⟨S_, .f32⟩
  | .hbm, ⟨20, _⟩ => ⟨S100000, .f32⟩
  | .hbm, ⟨21, _⟩ => ⟨S1000000x1, .i32⟩
  | .hbm, ⟨22, _⟩ => ⟨S100000, .f32⟩
  | .hbm, ⟨23, _⟩ => ⟨S100000x1, .f32⟩
  | .hbm, ⟨24, _⟩ => ⟨S_, .i32⟩
  | .hbm, ⟨25, _⟩ => ⟨S1000000, .i32⟩
  | .hbm, ⟨26, _⟩ => ⟨S1000000, .i1⟩
  | .hbm, ⟨27, _⟩ => ⟨S_, .i32⟩
  | .hbm, ⟨28, _⟩ => ⟨S1000000, .i32⟩
  | .hbm, ⟨29, _⟩ => ⟨S1000000, .i32⟩
  | .hbm, ⟨30, _⟩ => ⟨S1000000, .i32⟩
  | .hbm, ⟨31, _⟩ => ⟨S1000000x1, .i32⟩
  | .hbm, ⟨32, _⟩ => ⟨S1000000x128, .f32⟩
  | .hbm, ⟨33, _⟩ => ⟨S_, .f32⟩
  | .hbm, ⟨34, _⟩ => ⟨S100000x128, .f32⟩
  | .hbm, ⟨35, _⟩ => ⟨S1000000x1, .i32⟩
  | .hbm, ⟨36, _⟩ => ⟨S100000x128, .f32⟩
  | .hbm, ⟨37, _⟩ => ⟨S1x64, .f32⟩
  | .hbm, ⟨38, _⟩ => ⟨S100000x64, .f32⟩
  | .hbm, ⟨39, _⟩ => ⟨S_, .i32⟩
  | .hbm, ⟨40, _⟩ => ⟨S1000000, .i32⟩
  | .hbm, ⟨41, _⟩ => ⟨S1000000, .i1⟩
  | .hbm, ⟨42, _⟩ => ⟨S_, .i32⟩
  | .hbm, ⟨43, _⟩ => ⟨S1000000, .i32⟩
  | .hbm, ⟨44, _⟩ => ⟨S1000000, .i32⟩
  | .hbm, ⟨45, _⟩ => ⟨S1000000, .i32⟩
  | .hbm, ⟨46, _⟩ => ⟨S1000000x1, .i32⟩
  | .hbm, ⟨47, _⟩ => ⟨S1000000x64, .f32⟩
  | .hbm, ⟨48, _⟩ => ⟨S_, .f32⟩
  | .hbm, ⟨49, _⟩ => ⟨S100000x64, .f32⟩
  | .hbm, ⟨50, _⟩ => ⟨S1000000x1, .i32⟩
  | .hbm, ⟨51, _⟩ => ⟨S100000x64, .f32⟩
  | .hbm, ⟨52, _⟩ => ⟨S1x64, .f32⟩
  | .hbm, ⟨53, _⟩ => ⟨S100000x64, .f32⟩
  | .hbm, ⟨54, _⟩ => ⟨S1x200000, .i32⟩
  | .hbm, ⟨55, _⟩ => ⟨S200000, .i32⟩
  | .hbm, ⟨56, _⟩ => ⟨S1x200000, .i32⟩
  | .hbm, ⟨57, _⟩ => ⟨S200000, .i32⟩
  | .hbm, ⟨58, _⟩ => ⟨S_, .i32⟩
  | .hbm, ⟨59, _⟩ => ⟨S200000, .i32⟩
  | .hbm, ⟨60, _⟩ => ⟨S200000, .i1⟩
  | .hbm, ⟨61, _⟩ => ⟨S_, .i32⟩
  | .hbm, ⟨62, _⟩ => ⟨S200000, .i32⟩
  | .hbm, ⟨63, _⟩ => ⟨S200000, .i32⟩
  | .hbm, ⟨64, _⟩ => ⟨S200000, .i32⟩
  | .hbm, ⟨65, _⟩ => ⟨S200000x1, .i32⟩
  | .hbm, ⟨66, _⟩ => ⟨S200000x64, .f32⟩
  | .hbm, ⟨67, _⟩ => ⟨S_, .i32⟩
  | .hbm, ⟨68, _⟩ => ⟨S200000, .i32⟩
  | .hbm, ⟨69, _⟩ => ⟨S200000, .i1⟩
  | .hbm, ⟨70, _⟩ => ⟨S_, .i32⟩
  | .hbm, ⟨71, _⟩ => ⟨S200000, .i32⟩
  | .hbm, ⟨72, _⟩ => ⟨S200000, .i32⟩
  | .hbm, ⟨73, _⟩ => ⟨S200000, .i32⟩
  | .hbm, ⟨74, _⟩ => ⟨S200000x1, .i32⟩
  | .hbm, ⟨75, _⟩ => ⟨S200000x64, .f32⟩
  | .hbm, ⟨76, _⟩ => ⟨S64x64, .f32⟩
  | .hbm, ⟨77, _⟩ => ⟨S64x64, .f32⟩
  | .hbm, ⟨78, _⟩ => ⟨S1x64, .f32⟩
  | .hbm, ⟨79, _⟩ => ⟨S1x1, .f32⟩
  | .hbm, ⟨80, _⟩ => ⟨S200000x1, .f32⟩
  | .hbm, ⟨81, _⟩ => ⟨S200000, .f32⟩
  | .local _ .vmem, ⟨0, _⟩ => ⟨S5000x128, .f32⟩
  | .local _ .vmem, ⟨1, _⟩ => ⟨S5000x128, .f32⟩
  | .local _ .vmem, ⟨2, _⟩ => ⟨S5000x1, .f32⟩
  | .local _ .vmem, ⟨3, _⟩ => ⟨S5000x1, .f32⟩
  | .local _ .vmem, ⟨4, _⟩ => ⟨S5000x128, .f32⟩
  | .local _ .vmem, ⟨5, _⟩ => ⟨S5000x128, .f32⟩
  | .local _ .vmem, ⟨6, _⟩ => ⟨S128x64, .f32⟩
  | .local _ .vmem, ⟨7, _⟩ => ⟨S128x64, .f32⟩
  | .local _ .vmem, ⟨8, _⟩ => ⟨S1x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S5000x64, .f32⟩
  | .local _ .vmem, ⟨13, _⟩ => ⟨S5000x1, .f32⟩
  | .local _ .vmem, ⟨14, _⟩ => ⟨S5000x1, .f32⟩
  | .local _ .vmem, ⟨15, _⟩ => ⟨S5000x64, .f32⟩
  | .local _ .vmem, ⟨16, _⟩ => ⟨S5000x64, .f32⟩
  | .local _ .vmem, ⟨17, _⟩ => ⟨S64x64, .f32⟩
  | .local _ .vmem, ⟨18, _⟩ => ⟨S64x64, .f32⟩
  | .local _ .vmem, ⟨19, _⟩ => ⟨S1x64, .f32⟩
  | .local _ .vmem, ⟨20, _⟩ => ⟨S5000x64, .f32⟩
  | .local _ .vmem, ⟨21, _⟩ => ⟨S5000x64, .f32⟩
  | .local _ .vmem, ⟨22, _⟩ => ⟨S10000x64, .f32⟩
  | .local _ .vmem, ⟨23, _⟩ => ⟨S10000x64, .f32⟩
  | .local _ .vmem, ⟨24, _⟩ => ⟨S10000x64, .f32⟩
  | .local _ .vmem, ⟨25, _⟩ => ⟨S10000x64, .f32⟩
  | .local _ .vmem, ⟨26, _⟩ => ⟨S64x64, .f32⟩
  | .local _ .vmem, ⟨27, _⟩ => ⟨S64x64, .f32⟩
  | .local _ .vmem, ⟨28, _⟩ => ⟨S1x64, .f32⟩
  | .local _ .vmem, ⟨29, _⟩ => ⟨S64x1, .f32⟩
  | .local _ .vmem, ⟨30, _⟩ => ⟨S1x1, .f32⟩
  | .local _ .vmem, ⟨31, _⟩ => ⟨S10000x1, .f32⟩
  | .local _ .vmem, ⟨32, _⟩ => ⟨S10000x1, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst : Ref sig .tc := ⟨.hbm, 17, rfl⟩
abbrev main_v4 : Ref sig .tc := ⟨.hbm, 18, rfl⟩
abbrev main_cst_0 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_c : Ref sig .tc := ⟨.hbm, 24, rfl⟩
abbrev main_v9 : Ref sig .tc := ⟨.hbm, 25, rfl⟩
abbrev main_v10 : Ref sig .tc := ⟨.hbm, 26, rfl⟩
abbrev main_c_1 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_cst_2 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_c_3 : Ref sig .tc := ⟨.hbm, 39, rfl⟩
abbrev main_v21 : Ref sig .tc := ⟨.hbm, 40, rfl⟩
abbrev main_v22 : Ref sig .tc := ⟨.hbm, 41, rfl⟩
abbrev main_c_4 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_cst_5 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_c_6 : Ref sig .tc := ⟨.hbm, 58, rfl⟩
abbrev main_v37 : Ref sig .tc := ⟨.hbm, 59, rfl⟩
abbrev main_v38 : Ref sig .tc := ⟨.hbm, 60, rfl⟩
abbrev main_c_7 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_c_8 : Ref sig .tc := ⟨.hbm, 67, rfl⟩
abbrev main_v44 : Ref sig .tc := ⟨.hbm, 68, rfl⟩
abbrev main_v45 : Ref sig .tc := ⟨.hbm, 69, rfl⟩
abbrev main_c_9 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg1_1 : Ref sig .tc := ⟨.vmem, 25, rfl⟩
abbrev cc2_stg2_0 : Ref sig .tc := ⟨.vmem, 26, rfl⟩
abbrev cc2_stg3_0 : Ref sig .tc := ⟨.vmem, 27, rfl⟩
abbrev cc2_stg4_0 : Ref sig .tc := ⟨.vmem, 28, rfl⟩
abbrev cc2_stg5_0 : Ref sig .tc := ⟨.vmem, 29, rfl⟩
abbrev cc2_stg6_0 : Ref sig .tc := ⟨.vmem, 30, rfl⟩
abbrev cc2_stg7_0 : Ref sig .tc := ⟨.vmem, 31, rfl⟩
abbrev cc2_stg7_1 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21
abbrev cc2_sem0_0 : DmaSem sig := 22
abbrev cc2_sem0_1 : DmaSem sig := 23
abbrev cc2_sem1_0 : DmaSem sig := 24
abbrev cc2_sem1_1 : DmaSem sig := 25
abbrev cc2_sem2_0 : DmaSem sig := 26
abbrev cc2_sem3_0 : DmaSem sig := 27
abbrev cc2_sem4_0 : DmaSem sig := 28
abbrev cc2_sem5_0 : DmaSem sig := 29
abbrev cc2_sem6_0 : DmaSem sig := 30
abbrev cc2_sem7_0 : DmaSem sig := 31
abbrev cc2_sem7_1 : DmaSem sig := 32

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x64 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S10000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S64x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S64x1 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x1 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S10000x1 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

class Facts₀ : Prop where
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  bcast_S_S1000000 : S_.BroadcastsInDim S1000000 (![] : Fin 0 → Fin S1000000.rank)
  bcast_S_S100000 : S_.BroadcastsInDim S100000 (![] : Fin 0 → Fin S100000.rank)
  bcast_S1000000_S1000000x1_0 : S1000000.BroadcastsInDim S1000000x1 (![0] : Fin 1 → Fin S1000000x1.rank)
  bcast_S100000_S100000x1_0 : S100000.BroadcastsInDim S100000x1 (![0] : Fin 1 → Fin S100000x1.rank)
  bcast_S_S100000x128 : S_.BroadcastsInDim S100000x128 (![] : Fin 0 → Fin S100000x128.rank)
  shapeCasts_S64_S1x64 : S64.ShapeCasts S1x64
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  bcast_S_S100000x64 : S_.BroadcastsInDim S100000x64 (![] : Fin 0 → Fin S100000x64.rank)
  shapeCasts_S5000x64_S5000x64 : S5000x64.ShapeCasts S5000x64
  broadcasts_S5000x1_S5000x64 : S5000x1.Broadcasts S5000x64
  inb_S64x64_S64x64_0_0 : ∀ a, (![0, 0] : Fin 2 → Nat) a + S64x64.size a ≤ S64x64.size a
  h_S64x64 : 0 < S64x64.numel
  slices_S2x200000_S1x200000_0_0 : S2x200000.Slices ![0, 0] S1x200000
  shapeCasts_S1x200000_S200000 : S1x200000.ShapeCasts S200000
  slices_S2x200000_S1x200000_1_0 : S2x200000.Slices ![1, 0] S1x200000
  bcast_S_S200000 : S_.BroadcastsInDim S200000 (![] : Fin 0 → Fin S200000.rank)
  bcast_S200000_S200000x1_0 : S200000.BroadcastsInDim S200000x1 (![0] : Fin 1 → Fin S200000x1.rank)
  slices_S128x64_S64x64_0_0 : S128x64.Slices ![0, 0] S64x64
  slices_S128x64_S64x64_64_0 : S128x64.Slices ![64, 0] S64x64
  shapeCasts_S1_S1x1 : S1.ShapeCasts S1x1
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  shapeCasts_S64x64_S64x64 : S64x64.ShapeCasts S64x64
  inb_S64x1_S64x1_0_0 : ∀ a, (![0, 0] : Fin 2 → Nat) a + S64x1.size a ≤ S64x1.size a
  h_S64x1 : 0 < S64x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x64_S10000x64 : S1x64.Broadcasts S10000x64
  broadcasts_S1x1_S10000x1 : S1x1.Broadcasts S10000x1
  inb_S10000x1_S10000x1_0_0 : ∀ a, (![0, 0] : Fin 2 → Nat) a + S10000x1.size a ≤ S10000x1.size a
  h_S10000x1 : 0 < S10000x1.numel
  shapeCasts_S200000x1_S200000 : S200000x1.ShapeCasts S200000
  scatter_S100000_S1000000x1_S1000000_n_0_0_1_wf : ScatterDims.WF S100000 S1000000x1 S1000000 [] [0] [0] 1
  gather_S100000x128_S1000000x1_S1000000x128_1_0_n_n_0_1_1128_wf : GatherDims.WF S100000x128 S1000000x1 S1000000x128 [1] [0] [] [0] [] 1 ![1, 128]
  scatter_S100000x128_S1000000x1_S1000000x128_1_0_0_1_wf : ScatterDims.WF S100000x128 S1000000x1 S1000000x128 [1] [0] [0] 1
  dot_S5000x128_S128x64_S5000x64_1_0_0_1_n_n_wf : DotDims.WF S5000x128 S128x64 S5000x64 [1] [0] [0] [1] [] []
  gather_S100000x64_S1000000x1_S1000000x64_1_0_n_n_0_1_164_wf : GatherDims.WF S100000x64 S1000000x1 S1000000x64 [1] [0] [] [0] [] 1 ![1, 64]
  scatter_S100000x64_S1000000x1_S1000000x64_1_0_0_1_wf : ScatterDims.WF S100000x64 S1000000x1 S1000000x64 [1] [0] [0] 1
  dot_S5000x64_S64x64_S5000x64_1_0_0_1_n_n_wf : DotDims.WF S5000x64 S64x64 S5000x64 [1] [0] [0] [1] [] []
  gather_S100000x64_S200000x1_S200000x64_1_0_n_n_0_1_164_wf : GatherDims.WF S100000x64 S200000x1 S200000x64 [1] [0] [] [0] [] 1 ![1, 64]
  dot_S10000x64_S64x64_S10000x64_1_0_0_1_n_n_wf : DotDims.WF S10000x64 S64x64 S10000x64 [1] [0] [0] [1] [] []
  dot_S10000x64_S64x1_S10000x1_1_0_0_1_n_n_wf : DotDims.WF S10000x64 S64x1 S10000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S100000x1.size a
  hwx0_1 : ∀ i : grid0.Coords, EltTy.bits .f32 = 32 ∨ (Rect.block (s := S100000x1) S5000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x64.size a ≤ S128x64.size a
  hwx0_3 : ∀ i : grid0.Coords, EltTy.bits .f32 = 32 ∨ (Rect.block (s := S128x64) S128x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x64.size a ≤ S128x64.size a
  hwx0_4 : ∀ i : grid0.Coords, EltTy.bits .f32 = 32 ∨ (Rect.block (s := S128x64) S128x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x64.size a ≤ S100000x64.size a
  hwx0_6 : ∀ i : grid0.Coords, EltTy.bits .f32 = 32 ∨ (Rect.block (s := S100000x64) S5000x64.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S100000x1.size a
  hwx1_1 : ∀ i : grid1.Coords, EltTy.bits .f32 = 32 ∨ (Rect.block (s := S100000x1) S5000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x64.size a ≤ S100000x64.size a
  hwx1_2 : ∀ i : grid1.Coords, EltTy.bits .f32 = 32 ∨ (Rect.block (s := S100000x64) S5000x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x64.size a ≤ S64x64.size a
  hwx1_4 : ∀ i : grid1.Coords, EltTy.bits .f32 = 32 ∨ (Rect.block (s := S64x64) S64x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x64.size a ≤ S1x64.size a
  hwx1_5 : ∀ i : grid1.Coords, EltTy.bits .f32 = 32 ∨ (Rect.block (s := S1x64) S1x64.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x64.size a ≤ S100000x64.size a
  hwx1_6 : ∀ i : grid1.Coords, EltTy.bits .f32 = 32 ∨ (Rect.block (s := S100000x64) S5000x64.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S200000x64.size a
  hwx2_0 : ∀ i : grid2.Coords, EltTy.bits .f32 = 32 ∨ (Rect.block (s := S200000x64) S10000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S10000x64.size a ≤ S200000x64.size a
  hwx2_1 : ∀ i : grid2.Coords, EltTy.bits .f32 = 32 ∨ (Rect.block (s := S200000x64) S10000x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x64.size a ≤ S64x64.size a
  hwx2_2 : ∀ i : grid2.Coords, EltTy.bits .f32 = 32 ∨ (Rect.block (s := S64x64) S64x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64x64.size a ≤ S64x64.size a
  hwx2_3 : ∀ i : grid2.Coords, EltTy.bits .f32 = 32 ∨ (Rect.block (s := S64x64) S64x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x64.size a ≤ S1x64.size a
  hwx2_4 : ∀ i : grid2.Coords, EltTy.bits .f32 = 32 ∨ (Rect.block (s := S1x64) S1x64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S64x1.size a ≤ S64x1.size a
  hwx2_5 : ∀ i : grid2.Coords, EltTy.bits .f32 = 32 ∨ (Rect.block (s := S64x1) S64x1.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x1.size a ≤ S1x1.size a
  hwx2_6 : ∀ i : grid2.Coords, EltTy.bits .f32 = 32 ∨ (Rect.block (s := S1x1) S1x1.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S10000x1.size a ≤ S200000x1.size a
  hwx2_7 : ∀ i : grid2.Coords, EltTy.bits .f32 = 32 ∨ (Rect.block (s := S200000x1) S10000x1.size (cc2_transform_7 i) (hinb2_7 i)).WholeWords (EltTy.packing .f32)

variable [Facts₀]

def scatter_S100000_S1000000x1_S1000000_n_0_0_1 : ScatterDims S100000 S1000000x1 S1000000 where
  updateWindowDims := []
  insertedWindowDims := [0]
  scatterDimsToOperandDims := [0]
  indexVectorDim := 1
  wf := scatter_S100000_S1000000x1_S1000000_n_0_0_1_wf
def gather_S100000x128_S1000000x1_S1000000x128_1_0_n_n_0_1_1128 : GatherDims S100000x128 S1000000x1 S1000000x128 where
  offsetDims := [1]
  collapsedSliceDims := [0]
  operandBatchingDims := []
  startIndicesBatchingDims := []
  startIndexMap := [0]
  indexVectorDim := 1
  sliceSizes := ![1, 128]
  wf := gather_S100000x128_S1000000x1_S1000000x128_1_0_n_n_0_1_1128_wf
def scatter_S100000x128_S1000000x1_S1000000x128_1_0_0_1 : ScatterDims S100000x128 S1000000x1 S1000000x128 where
  updateWindowDims := [1]
  insertedWindowDims := [0]
  scatterDimsToOperandDims := [0]
  indexVectorDim := 1
  wf := scatter_S100000x128_S1000000x1_S1000000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def gather_S100000x64_S200000x1_S200000x64_1_0_n_n_0_1_164 : GatherDims S100000x64 S200000x1 S200000x64 where
  offsetDims := [1]
  collapsedSliceDims := [0]
  operandBatchingDims := []
  startIndicesBatchingDims := []
  startIndexMap := [0]
  indexVectorDim := 1
  sliceSizes := ![1, 64]
  wf := gather_S100000x64_S200000x1_S200000x64_1_0_n_n_0_1_164_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def dot_S10000x64_S64x1_S10000x1_1_0_0_1_n_n : DotDims S10000x64 S64x1 S10000x1 where
  lhsContracting := [1]
  rhsContracting := [0]
  lhsNonContracting := [0]
  rhsNonContracting := [1]
  lhsBatch := []
  rhsBatch := []
  wf := dot_S10000x64_S64x1_S10000x1_1_0_0_1_n_n_wf

abbrev win0_0 : Pipeline.Window sig grid0 :=
  Pipeline.Window.ofSpec (Memref.whole main_v18) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S5000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v19) S1x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v20) S5000x64.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v30) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v8) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v20) S5000x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S64x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v31) S1x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v32) S5000x64.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v43) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v50) S10000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v51) S64x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v52) S64x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v53) S1x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg11) S64x1.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v54) S1x1.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v55) S10000x1.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x1000000 : Shape := ⟨2, ![2, 1000000]⟩
abbrev S2x200000 : Shape := ⟨2, ![2, 200000]⟩
abbrev S128x64 : Shape := ⟨2, ![128, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S1x1000000 : Shape := ⟨2, ![1, 1000000]⟩
abbrev S1000000 : Shape := ⟨1, ![1000000]⟩
abbrev S_ : Shape := ⟨0, ![]⟩
abbrev S1000000x1 : Shape := ⟨2, ![1000000, 1]⟩
abbrev S1000000x128 : Shape := ⟨2, ![1000000, 128]⟩
abbrev S100000 : Shape := ⟨1, ![100000]⟩
abbrev S100000x1 : Shape := ⟨2, ![100000, 1]⟩
abbrev S100000x64 : Shape := ⟨2, ![100000, 64]⟩
abbrev S1x64 : Shape := ⟨2, ![1, 64]⟩
abbrev S1000000x64 : Shape := ⟨2, ![1000000, 64]⟩
abbrev S1x200000 : Shape := ⟨2, ![1, 200000]⟩
abbrev S200000 : Shape := ⟨1, ![200000]⟩
abbrev S200000x1 : Shape := ⟨2, ![200000, 1]⟩
abbrev S200000x64 : Shape := ⟨2, ![200000, 64]⟩
abbrev S200000x128 : Shape := ⟨2, ![200000, 128]⟩
abbrev S1x1 : Shape := ⟨2, ![1, 1]⟩

abbrev nBuf : Space → Nat
  | .hbm => 117
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1000000, .i32⟩
  | .hbm, ⟨2, _⟩ => ⟨S2x200000, .i32⟩
  | .hbm, ⟨3, _⟩ => ⟨S128x64, .f32⟩
  | .hbm, ⟨4, _⟩ => ⟨S128x64, .f32⟩
  | .hbm, ⟨5, _⟩ => ⟨S64, .f32⟩
  | .hbm, ⟨6, _⟩ => ⟨S64x64, .f32⟩
  | .hbm, ⟨7, _⟩ => ⟨S64x64, .f32⟩
  | .hbm, ⟨8, _⟩ => ⟨S64, .f32⟩
  | .hbm, ⟨9, _⟩ => ⟨S128x64, .f32⟩
  | .hbm, ⟨10, _⟩ => ⟨S64, .f32⟩
  | .hbm, ⟨11, _⟩ => ⟨S64x1, .f32⟩
  | .hbm, ⟨12, _⟩ => ⟨S1, .f32⟩
  | .hbm, ⟨13, _⟩ => ⟨S1x1000000, .i32⟩
  | .hbm, ⟨14, _⟩ => ⟨S1000000, .i32⟩
  | .hbm, ⟨15, _⟩ => ⟨S1x1000000, .i32⟩
  | .hbm, ⟨16, _⟩ => ⟨S1000000, .i32⟩
  | .hbm, ⟨17, _⟩ => ⟨S_, .i32⟩
  | .hbm, ⟨18, _⟩ => ⟨S1000000, .i32⟩
  | .hbm, ⟨19, _⟩ => ⟨S1000000, .i1⟩
  | .hbm, ⟨20, _⟩ => ⟨S_, .i32⟩
  | .hbm, ⟨21, _⟩ => ⟨S1000000, .i32⟩
  | .hbm, ⟨22, _⟩ => ⟨S1000000, .i32⟩
  | .hbm, ⟨23, _⟩ => ⟨S1000000, .i32⟩
  | .hbm, ⟨24, _⟩ => ⟨S1000000x1, .i32⟩
  | .hbm, ⟨25, _⟩ => ⟨S1000000x128, .f32⟩
  | .hbm, ⟨26, _⟩ => ⟨S_, .f32⟩
  | .hbm, ⟨27, _⟩ => ⟨S100000x128, .f32⟩
  | .hbm, ⟨28, _⟩ => ⟨S1000000x1, .i32⟩
  | .hbm, ⟨29, _⟩ => ⟨S100000x128, .f32⟩
  | .hbm, ⟨30, _⟩ => ⟨S_, .f32⟩
  | .hbm, ⟨31, _⟩ => ⟨S1000000, .f32⟩
  | .hbm, ⟨32, _⟩ => ⟨S_, .f32⟩
  | .hbm, ⟨33, _⟩ => ⟨S100000, .f32⟩
  | .hbm, ⟨34, _⟩ => ⟨S1000000x1, .i32⟩
  | .hbm, ⟨35, _⟩ => ⟨S100000, .f32⟩
  | .hbm, ⟨36, _⟩ => ⟨S_, .f32⟩
  | .hbm, ⟨37, _⟩ => ⟨S100000, .f32⟩
  | .hbm, ⟨38, _⟩ => ⟨S100000, .f32⟩
  | .hbm, ⟨39, _⟩ => ⟨S100000x1, .f32⟩
  | .hbm, ⟨40, _⟩ => ⟨S100000x128, .f32⟩
  | .hbm, ⟨41, _⟩ => ⟨S100000x128, .f32⟩
  | .hbm, ⟨42, _⟩ => ⟨S100000x64, .f32⟩
  | .hbm, ⟨43, _⟩ => ⟨S100000x64, .f32⟩
  | .hbm, ⟨44, _⟩ => ⟨S100000x64, .f32⟩
  | .hbm, ⟨45, _⟩ => ⟨S1x64, .f32⟩
  | .hbm, ⟨46, _⟩ => ⟨S100000x64, .f32⟩
  | .hbm, ⟨47, _⟩ => ⟨S100000x64, .f32⟩
  | .hbm, ⟨48, _⟩ => ⟨S_, .f32⟩
  | .hbm, ⟨49, _⟩ => ⟨S100000x64, .f32⟩
  | .hbm, ⟨50, _⟩ => ⟨S100000x64, .f32⟩
  | .hbm, ⟨51, _⟩ => ⟨S_, .i32⟩
  | .hbm, ⟨52, _⟩ => ⟨S1000000, .i32⟩
  | .hbm, ⟨53, _⟩ => ⟨S1000000, .i1⟩
  | .hbm, ⟨54, _⟩ => ⟨S_, .i32⟩
  | .hbm, ⟨55, _⟩ => ⟨S1000000, .i32⟩
  | .hbm, ⟨56, _⟩ => ⟨S1000000, .i32⟩
  | .hbm, ⟨57, _⟩ => ⟨S1000000, .i32⟩
  | .hbm, ⟨58, _⟩ => ⟨S1000000x1, .i32⟩
  | .hbm, ⟨59, _⟩ => ⟨S1000000x64, .f32⟩
  | .hbm, ⟨60, _⟩ => ⟨S_, .f32⟩
  | .hbm, ⟨61, _⟩ => ⟨S100000x64, .f32⟩
  | .hbm, ⟨62, _⟩ => ⟨S1000000x1, .i32⟩
  | .hbm, ⟨63, _⟩ => ⟨S100000x64, .f32⟩
  | .hbm, ⟨64, _⟩ => ⟨S_, .f32⟩
  | .hbm, ⟨65, _⟩ => ⟨S1000000, .f32⟩
  | .hbm, ⟨66, _⟩ => ⟨S_, .f32⟩
  | .hbm, ⟨67, _⟩ => ⟨S100000, .f32⟩
  | .hbm, ⟨68, _⟩ => ⟨S1000000x1, .i32⟩
  | .hbm, ⟨69, _⟩ => ⟨S100000, .f32⟩
  | .hbm, ⟨70, _⟩ => ⟨S_, .f32⟩
  | .hbm, ⟨71, _⟩ => ⟨S100000, .f32⟩
  | .hbm, ⟨72, _⟩ => ⟨S100000, .f32⟩
  | .hbm, ⟨73, _⟩ => ⟨S100000x1, .f32⟩
  | .hbm, ⟨74, _⟩ => ⟨S100000x64, .f32⟩
  | .hbm, ⟨75, _⟩ => ⟨S100000x64, .f32⟩
  | .hbm, ⟨76, _⟩ => ⟨S100000x64, .f32⟩
  | .hbm, ⟨77, _⟩ => ⟨S100000x64, .f32⟩
  | .hbm, ⟨78, _⟩ => ⟨S100000x64, .f32⟩
  | .hbm, ⟨79, _⟩ => ⟨S1x64, .f32⟩
  | .hbm, ⟨80, _⟩ => ⟨S100000x64, .f32⟩
  | .hbm, ⟨81, _⟩ => ⟨S100000x64, .f32⟩
  | .hbm, ⟨82, _⟩ => ⟨S1x200000, .i32⟩
  | .hbm, ⟨83, _⟩ => ⟨S200000, .i32⟩
  | .hbm, ⟨84, _⟩ => ⟨S_, .i32⟩
  | .hbm, ⟨85, _⟩ => ⟨S200000, .i32⟩
  | .hbm, ⟨86, _⟩ => ⟨S200000, .i1⟩
  | .hbm, ⟨87, _⟩ => ⟨S_, .i32⟩
  | .hbm, ⟨88, _⟩ => ⟨S200000, .i32⟩
  | .hbm, ⟨89, _⟩ => ⟨S200000, .i32⟩
  | .hbm, ⟨90, _⟩ => ⟨S200000, .i32⟩
  | .hbm, ⟨91, _⟩ => ⟨S200000x1, .i32⟩
  | .hbm, ⟨92, _⟩ => ⟨S200000x64, .f32⟩
  | .hbm, ⟨93, _⟩ => ⟨S1x200000, .i32⟩
  | .hbm, ⟨94, _⟩ => ⟨S200000, .i32⟩
  | .hbm, ⟨95, _⟩ => ⟨S_, .i32⟩
  | .hbm, ⟨96, _⟩ => ⟨S200000, .i32⟩
  | .hbm, ⟨97, _⟩ => ⟨S200000, .i1⟩
  | .hbm, ⟨98, _⟩ => ⟨S_, .i32⟩
  | .hbm, ⟨99, _⟩ => ⟨S200000, .i32⟩
  | .hbm, ⟨100, _⟩ => ⟨S200000, .i32⟩
  | .hbm, ⟨101, _⟩ => ⟨S200000, .i32⟩
  | .hbm, ⟨102, _⟩ => ⟨S200000x1, .i32⟩
  | .hbm, ⟨103, _⟩ => ⟨S200000x64, .f32⟩
  | .hbm, ⟨104, _⟩ => ⟨S200000x128, .f32⟩
  | .hbm, ⟨105, _⟩ => ⟨S200000x64, .f32⟩
  | .hbm, ⟨106, _⟩ => ⟨S1x64, .f32⟩
  | .hbm, ⟨107, _⟩ => ⟨S200000x64, .f32⟩
  | .hbm, ⟨108, _⟩ => ⟨S200000x64, .f32⟩
  | .hbm, ⟨109, _⟩ => ⟨S_, .f32⟩
  | .hbm, ⟨110, _⟩ => ⟨S200000x64, .f32⟩
  | .hbm, ⟨111, _⟩ => ⟨S200000x64, .f32⟩
  | .hbm, ⟨112, _⟩ => ⟨S200000x1, .f32⟩
  | .hbm, ⟨113, _⟩ => ⟨S1x1, .f32⟩
  | .hbm, ⟨114, _⟩ => ⟨S200000x1, .f32⟩
  | .hbm, ⟨115, _⟩ => ⟨S200000x1, .f32⟩
  | .hbm, ⟨116, _⟩ => ⟨S200000, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_c : Ref sig .tc := ⟨.hbm, 17, rfl⟩
abbrev main_v4 : Ref sig .tc := ⟨.hbm, 18, rfl⟩
abbrev main_v5 : Ref sig .tc := ⟨.hbm, 19, rfl⟩
abbrev main_c_0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst_1 : Ref sig .tc := ⟨.hbm, 30, rfl⟩
abbrev main_v14 : Ref sig .tc := ⟨.hbm, 31, rfl⟩
abbrev main_cst_2 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_cst_3 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_call0_cst : Ref sig .tc := ⟨.hbm, 48, rfl⟩
abbrev main_call0_v0 : Ref sig .tc := ⟨.hbm, 49, rfl⟩
abbrev main_v29 : Ref sig .tc := ⟨.hbm, 50, rfl⟩
abbrev main_c_4 : Ref sig .tc := ⟨.hbm, 51, rfl⟩
abbrev main_v30 : Ref sig .tc := ⟨.hbm, 52, rfl⟩
abbrev main_v31 : Ref sig .tc := ⟨.hbm, 53, rfl⟩
abbrev main_c_5 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_cst_6 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_cst_7 : Ref sig .tc := ⟨.hbm, 64, rfl⟩
abbrev main_v40 : Ref sig .tc := ⟨.hbm, 65, rfl⟩
abbrev main_cst_8 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_cst_9 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_c_10 : Ref sig .tc := ⟨.hbm, 84, rfl⟩
abbrev main_v57 : Ref sig .tc := ⟨.hbm, 85, rfl⟩
abbrev main_v58 : Ref sig .tc := ⟨.hbm, 86, rfl⟩
abbrev main_c_11 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_c_12 : Ref sig .tc := ⟨.hbm, 95, rfl⟩
abbrev main_v66 : Ref sig .tc := ⟨.hbm, 96, rfl⟩
abbrev main_v67 : Ref sig .tc := ⟨.hbm, 97, rfl⟩
abbrev main_c_13 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_call1_cst : Ref sig .tc := ⟨.hbm, 109, rfl⟩
abbrev main_call1_v0 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩

abbrev nD : Nat := 1
abbrev τ : Topo := Topo.v7x

variable {F : FTy → Type} [FloatOps F]

class Facts₀ : Prop where
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  slices_S2x200000_S1x200000_0_0 : S2x200000.Slices ![0, 0] S1x200000
  shapeCasts_S1x200000_S200000 : S1x200000.ShapeCasts S200000
  bcast_S_S200000 : S_.BroadcastsInDim S200000 (![] : Fin 0 → Fin S200000.rank)
  bcast_S200000_S200000x1_0 : S200000.BroadcastsInDim S200000x1 (![0] : Fin 1 → Fin S200000x1.rank)
  slices_S2x200000_S1x200000_1_0 : S2x200000.Slices ![1, 0] S1x200000
  concatenates_S200000x64_S200000x64_S200000x128_d1 : Shape.Concatenates [S200000x64, S200000x64] S200000x128 1
  bcast_S1x64_S200000x64_0_1 : S1x64.BroadcastsInDim S200000x64 (![0, 1] : Fin 2 → Fin S200000x64.rank)
  bcast_S_S200000x64 : S_.BroadcastsInDim S200000x64 (![] : Fin 0 → Fin S200000x64.rank)
  bcast_S1_S1x1_1 : S1.BroadcastsInDim S1x1 (![1] : Fin 1 → Fin S1x1.rank)
  bcast_S1x1_S200000x1_0_1 : S1x1.BroadcastsInDim S200000x1 (![0, 1] : Fin 2 → Fin S200000x1.rank)
  shapeCasts_S200000x1_S200000 : S200000x1.ShapeCasts S200000
  gather_S100000x128_S1000000x1_S1000000x128_1_0_n_n_0_1_1128_wf : GatherDims.WF S100000x128 S1000000x1 S1000000x128 [1] [0] [] [0] [] 1 ![1, 128]
  scatter_S100000x128_S1000000x1_S1000000x128_1_0_0_1_wf : ScatterDims.WF S100000x128 S1000000x1 S1000000x128 [1] [0] [0] 1
  scatter_S100000_S1000000x1_S1000000_n_0_0_1_wf : ScatterDims.WF S100000 S1000000x1 S1000000 [] [0] [0] 1
  dot_S100000x128_S128x64_S100000x64_1_0_0_1_n_n_wf : DotDims.WF S100000x128 S128x64 S100000x64 [1] [0] [0] [1] [] []
  gather_S100000x64_S1000000x1_S1000000x64_1_0_n_n_0_1_164_wf : GatherDims.WF S100000x64 S1000000x1 S1000000x64 [1] [0] [] [0] [] 1 ![1, 64]
  scatter_S100000x64_S1000000x1_S1000000x64_1_0_0_1_wf : ScatterDims.WF S100000x64 S1000000x1 S1000000x64 [1] [0] [0] 1
  dot_S100000x64_S64x64_S100000x64_1_0_0_1_n_n_wf : DotDims.WF S100000x64 S64x64 S100000x64 [1] [0] [0] [1] [] []
  gather_S100000x64_S200000x1_S200000x64_1_0_n_n_0_1_164_wf : GatherDims.WF S100000x64 S200000x1 S200000x64 [1] [0] [] [0] [] 1 ![1, 64]
  dot_S200000x128_S128x64_S200000x64_1_0_0_1_n_n_wf : DotDims.WF S200000x128 S128x64 S200000x64 [1] [0] [0] [1] [] []
  dot_S200000x64_S64x1_S200000x1_1_0_0_1_n_n_wf : DotDims.WF S200000x64 S64x1 S200000x1 [1] [0] [0] [1] [] []

variable [Facts₀]

def gather_S100000x128_S1000000x1_S1000000x128_1_0_n_n_0_1_1128 : GatherDims S100000x128 S1000000x1 S1000000x128 where
  offsetDims := [1]
  collapsedSliceDims := [0]
  operandBatchingDims := []
  startIndicesBatchingDims := []
  startIndexMap := [0]
  indexVectorDim := 1
  sliceSizes := ![1, 128]
  wf := gather_S100000x128_S1000000x1_S1000000x128_1_0_n_n_0_1_1128_wf
def scatter_S100000x128_S1000000x1_S1000000x128_1_0_0_1 : ScatterDims S100000x128 S1000000x1 S1000000x128 where
  updateWindowDims := [1]
  insertedWindowDims := [0]
  scatterDimsToOperandDims := [0]
  indexVectorDim := 1
  wf := scatter_S100000x128_S1000000x1_S1000000x128_1_0_0_1_wf
def scatter_S100000_S1000000x1_S1000000_n_0_0_1 : ScatterDims S100000 S1000000x1 S1000000 where
  updateWindowDims := []
  insertedWindowDims := [0]
  scatterDimsToOperandDims := [0]
  indexVectorDim := 1
  wf := scatter_S100000_S1000000x1_S1000000_n_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000x64_S200000x1_S200000x64_1_0_n_n_0_1_164 : GatherDims S100000x64 S200000x1 S200000x64 where
  offsetDims := [1]
  collapsedSliceDims := [0]
  operandBatchingDims := []
  startIndicesBatchingDims := []
  startIndexMap := [0]
  indexVectorDim := 1
  sliceSizes := ![1, 64]
  wf := gather_S100000x64_S200000x1_S200000x64_1_0_n_n_0_1_164_wf
def dot_S200000x128_S128x64_S200000x64_1_0_0_1_n_n : DotDims S200000x128 S128x64 S200000x64 where
  lhsContracting := [1]
  rhsContracting := [0]
  lhsNonContracting := [0]
  rhsNonContracting := [1]
  lhsBatch := []
  rhsBatch := []
  wf := dot_S200000x128_S128x64_S200000x64_1_0_0_1_n_n_wf
def dot_S200000x64_S64x1_S200000x1_1_0_0_1_n_n : DotDims S200000x64 S64x1 S200000x1 where
  lhsContracting := [1]
  rhsContracting := [0]
  lhsNonContracting := [0]
  rhsNonContracting := [1]
  lhsBatch := []
  rhsBatch := []
  wf := dot_S200000x64_S64x1_S200000x1_1_0_0_1_n_n_wf

class Facts : Prop extends Facts₀ where

variable [Facts]
-- ==== Proof.KernelRun.lean ====
/-
  The idealized kernel's run, with every buffer named at the end.

  @main is seven segments: four stretches of host operations around three kernel regions.  The contents of the
  TensorCore's buffers at the segment boundaries form a chain `W0, W1, …, W7`: a host stretch maps the contents to
  what its operations compute from them, a region replaces its arrays by what its write-backs leave.  Every weakly
  fair execution terminates, faults nowhere, and ends with every buffer that outlives @main holding the last
  boundary's contents `W7` — in particular the result buffer.
-/
import proofs.«164268_j10651518894409_1_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates without a fault, and in its final state every buffer that
    outlives @main holds the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W7 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h => h)

/-- The result buffer ends at the last boundary's contents, and the arguments end as launched. -/
theorem run_result : θ_run defs (onTc (τ := τ) (main (F := F))) ⟨m, fun _ => 0, ρ⟩ (fun r => ∀ c : Dev nD,
      r.2.mem ((c.tc : Thread nD τ).loc main_v56) = W7 m ρ c (Proc.devRef .tc main_v56)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun _ h c => ⟨h c _ (mem_uc main_v56 (by decide)),
      (h c _ (mem_uc main_arg0 (by decide))).trans (W7_main_arg0 m ρ c),
      (h c _ (mem_uc main_arg1 (by decide))).trans (W7_main_arg1 m ρ c),
      (h c _ (mem_uc main_arg2 (by decide))).trans (W7_main_arg2 m ρ c),
      (h c _ (mem_uc main_arg3 (by decide))).trans (W7_main_arg3 m ρ c),
      (h c _ (mem_uc main_arg4 (by decide))).trans (W7_main_arg4 m ρ c),
      (h c _ (mem_uc main_arg5 (by decide))).trans (W7_main_arg5 m ρ c),
      (h c _ (mem_uc main_arg6 (by decide))).trans (W7_main_arg6 m ρ c),
      (h c _ (mem_uc main_arg7 (by decide))).trans (W7_main_arg7 m ρ c),
      (h c _ (mem_uc main_arg8 (by decide))).trans (W7_main_arg8 m ρ c),
      (h c _ (mem_uc main_arg9 (by decide))).trans (W7_main_arg9 m ρ c),
      (h c _ (mem_uc main_arg10 (by decide))).trans (W7_main_arg10 m ρ c),
      (h c _ (mem_uc main_arg11 (by decide))).trans (W7_main_arg11 m ρ c),
      (h c _ (mem_uc main_arg12 (by decide))).trans (W7_main_arg12 m ρ c)⟩) (run_all m ρ)

end Cert.KernelIdeal.Run

end
-- ==== Proof.LibRowOps.lean ====
/-
  Rows of a matrix on the extended reals: a plain matrix product read at an entry, and a row's maximum.

  • A matrix product `[a, K] × [K, b]` whose dimension numbers contract the one shared axis reads, at the entry
    `(r, q)`, as the sum over `k : Fin K` of `lhs (r, k) · rhs (k, q)` — for the kernel's product into a zero
    accumulator and for the host's product alike.  The dimension numbers enter only through four coordinate facts
    (which operand coordinate is the output's, which is the contraction's), so the lemma serves any record.
  • The maximum over the lanes of an `[a, b]` matrix, read at row `p`, is the fold of `max` over that row's entries
    from the accumulator's value — for the kernel's lane reduction and for the host's one-axis reduction alike.
-/
import Idealize.ShloMosaic.Lib.Pipeline.Value
import Idealize.ShloMosaic.Lib.ValueIdx
import Idealize.ShloMosaic.PureOps.Ideal.Laws

namespace Cert.RowOps

open Idealize.ShloMosaic Idealize.ShloMosaic.ValueIdx
open scoped BigOperators

/-- The contraction's sum re-indexed by the one contracted coordinate, for operands read at indices whose
    coordinates are those of a plain product. -/
theorem contr_sum_entry {a K b : ℕ} {φ₁ φ₂ : FTy} (d : DotDims ⟨2, ![a, K]⟩ ⟨2, ![K, b]⟩ ⟨2, ![a, b]⟩)
    (hr : d.contr.rank = 1) (hs : d.contr.size ⟨0, by omega⟩ = K)
    (hl0 : ∀ i q, (d.lhsIdx i q 0).val = (i 0).val) (hl1 : ∀ i q, (d.lhsIdx i q 1).val = (q ⟨0, by omega⟩).val)
    (hr0 : ∀ i q, (d.rhsIdx i q 0).val = (q ⟨0, by omega⟩).val) (hr1 : ∀ i q, (d.rhsIdx i q 1).val = (i 1).val)
    (lhs : FVec Ideal ⟨2, ![a, K]⟩ φ₁) (rhs : FVec Ideal ⟨2, ![K, b]⟩ φ₂) (r : Fin a) (q : Fin b) :
    ∑ k : d.contr.Idx, lhs (d.lhsIdx (ix2 r q) k) * rhs (d.rhsIdx (ix2 r q) k)
      = ∑ k : Fin K, lhs (ix2 r k) * rhs (ix2 k q) := by
  rw [← Equiv.sum_comp (contrEquiv1 d K hr hs).symm]
  refine Finset.sum_congr rfl fun k _ => ?_
  have hk := contrEquiv1_symm_val d K hr hs k
  have el : d.lhsIdx (ix2 r q) ((contrEquiv1 d K hr hs).symm k) = ix2 r k := funext fun ax => Fin.ext (by
    match ax with
    | ⟨0, _⟩ => exact hl0 _ _
    | ⟨1, _⟩ => exact (hl1 _ _).trans hk)
  have er : d.rhsIdx (ix2 r q) ((contrEquiv1 d K hr hs).symm k) = ix2 k q := funext fun ax => Fin.ext (by
    match ax with
    | ⟨0, _⟩ => exact (hr0 _ _).trans hk
    | ⟨1, _⟩ => exact hr1 _ _)
  rw [el, er]

/-- The kernel's product into a zero accumulator, at an entry. -/
theorem matmul_zero_entry {a K b : ℕ} {φ₁ φ₂ : FTy} (d : DotDims ⟨2, ![a, K]⟩ ⟨2, ![K, b]⟩ ⟨2, ![a, b]⟩)
    (hr : d.contr.rank = 1) (hs : d.contr.size ⟨0, by omega⟩ = K)
    (hl0 : ∀ i q, (d.lhsIdx i q 0).val = (i 0).val) (hl1 : ∀ i q, (d.lhsIdx i q 1).val = (q ⟨0, by omega⟩).val)
    (hr0 : ∀ i q, (d.rhsIdx i q 0).val = (q ⟨0, by omega⟩).val) (hr1 : ∀ i q, (d.rhsIdx i q 1).val = (i 1).val)
    (prec : Option ContractPrecision) (lhs : FVec Ideal ⟨2, ![a, K]⟩ φ₁) (rhs : FVec Ideal ⟨2, ![K, b]⟩ φ₂)
    (r : Fin a) (q : Fin b) :
    matmul d prec lhs rhs (constant (F := Ideal) ⟨2, ![a, b]⟩ .f32 0x00000000#32) (ix2 r q)
      = ∑ k : Fin K, lhs (ix2 r k) * rhs (ix2 k q) :=
  (Ideal.matmul_constant_zero_apply d prec lhs rhs (ix2 r q)).trans
    (contr_sum_entry d hr hs hl0 hl1 hr0 hr1 lhs rhs r q)

/-- The host's product, at an entry. -/
theorem dotGeneral_entry {a K b : ℕ} {φ₁ φ₂ : FTy} (d : DotDims ⟨2, ![a, K]⟩ ⟨2, ![K, b]⟩ ⟨2, ![a, b]⟩)
    (hr : d.contr.rank = 1) (hs : d.contr.size ⟨0, by omega⟩ = K)
    (hl0 : ∀ i q, (d.lhsIdx i q 0).val = (i 0).val) (hl1 : ∀ i q, (d.lhsIdx i q 1).val = (q ⟨0, by omega⟩).val)
    (hr0 : ∀ i q, (d.rhsIdx i q 0).val = (q ⟨0, by omega⟩).val) (hr1 : ∀ i q, (d.rhsIdx i q 1).val = (i 1).val)
    (prec : Option ContractPrecision) (lhs : FVec Ideal ⟨2, ![a, K]⟩ φ₁) (rhs : FVec Ideal ⟨2, ![K, b]⟩ φ₂)
    (r : Fin a) (q : Fin b) :
    Host.dotGeneral (F := Ideal) d prec lhs rhs (ix2 r q) = ∑ k : Fin K, lhs (ix2 r k) * rhs (ix2 k q) := by
  simp only [Host.dotGeneral]
  exact (Ideal.dotGeneral_apply d prec _ lhs rhs (ix2 r q)).trans
    (contr_sum_entry d hr hs hl0 hl1 hr0 hr1 lhs rhs r q)

/-- The kernel's maximum over the lanes, at a row: the fold of `max` over the row from the accumulator's value. -/
theorem multiReduction_max_rows {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (p : Fin a) :
    multiReduction .maximumf [1] ⟨1, ![a]⟩ src acc h hφ hacc (ix1 p)
      = (Finset.univ : Finset (Fin b)).fold max (Ideal.ofBits φ acc) (fun k => src (ix2 p k)) := by
  refine (Ideal.multiReduction_maximumf_single src acc h hφ hacc (ix1 p)).trans ?_
  refine congrArg (Finset.fold max _ · _) (funext fun k => ?_)
  exact congrArg src (funext fun c => Fin.ext (by match c with | ⟨0, _⟩ => rfl | ⟨1, _⟩ => rfl))

/-- The host's maximum over the lanes, at a row: the same fold from the initial value. -/
theorem hostReduce_max_rows {a b : ℕ} {φ : FTy} (x : FVec Ideal ⟨2, ![a, b]⟩ φ) (init : FVec Ideal ⟨0, ![]⟩ φ)
    (h' : (⟨2, ![a, b]⟩ : Shape).ReducesTo [1] ⟨1, ![a]⟩) (h : (⟨2, ![a, b]⟩ : Shape).Reduces [1] ⟨1, ![a]⟩)
    (hu : 0 < (⟨0, ![]⟩ : Shape).numel) (p : Fin a) :
    Host.reduce (FloatOps.maximumf (F := Ideal) (φ := φ)) x init h' hu (ix1 p)
      = (Finset.univ : Finset (Fin b)).fold max (init ix0) (fun k => x (ix2 p k)) := by
  refine (Host.reduce_eq_fold_single FloatOps.maximumf x init h' h hu (ix1 p)).trans ?_
  rw [eq_ix0 (Shape.Idx.first hu)]
  refine congrArg (Finset.fold max _ · _) (funext fun k => ?_)
  exact congrArg x (funext fun c => Fin.ext (by match c with | ⟨0, _⟩ => rfl | ⟨1, _⟩ => rfl))

end Cert.RowOps
-- ==== Proof.LibDualLinear.lean ====
/-
  Two matrix products added to a row of biases, on the extended reals, read at an entry.

  For matrices `x₁, x₂ : [a, K]`, `w₁, w₂ : [K, n]` and a bias per column, the entry `(r, q)` of
  `x₁ · w₁ + x₂ · w₂ + b` is `(∑ₖ x₁(r,k) · w₁(k,q)) + (∑ₖ x₂(r,k) · w₂(k,q)) + b(q)`.  The same number is
  reached two ways: by two products into zero accumulators, added, plus the bias row repeated down the rows
  (`kernel_entry`), and by two host products, added, plus the bias vector laid out as one row and then repeated
  (`host_entry`).  Only the order of the additions matters here, and it is the same on both sides, so nothing
  is asked of the numbers: the lemmas hold for every extended real.

  Last, a product over a contraction axis of extent `K + K'` whose left operand is two matrices side by side is
  the sum of the two products over `K` and `K'` (`sum_split`): a finite sum split at `K`.
-/
import Idealize.ShloMosaic.Lib.Pipeline.Value
import Idealize.ShloMosaic.Lib.ValueIdx
import Idealize.ShloMosaic.PureOps.Ideal.Laws
import proofs.«164268_j10651518894409_1_alg».proof.Proof.LibRowOps

namespace Cert.DualLinear

open Idealize.ShloMosaic Idealize.ShloMosaic.ValueIdx
open scoped BigOperators

/-- Entry `(r, q)` of `x₁ · w₁ + x₂ · w₂ + b`. -/
noncomputable def entry {a K n : ℕ} {φ₁ φ₂ : FTy} (x1 x2 : FVec Ideal ⟨2, ![a, K]⟩ φ₁) (w1 w2 : FVec Ideal ⟨2, ![K, n]⟩ φ₂)
    (b : Fin n → EReal) (r : Fin a) (q : Fin n) : EReal :=
  (∑ k : Fin K, x1 (ix2 r k) * w1 (ix2 k q)) + (∑ k : Fin K, x2 (ix2 r k) * w2 (ix2 k q)) + b q

/-- The entry depends only on row `r` of the left matrices, column `q` of the right ones and the bias of column `q`:
    two settings that agree there, of whatever extents, have the same entry. -/
theorem entry_congr {a a' K n n' : ℕ} {φ₁ φ₂ φ₁' φ₂' : FTy}
    (x1 x2 : FVec Ideal ⟨2, ![a, K]⟩ φ₁) (w1 w2 : FVec Ideal ⟨2, ![K, n]⟩ φ₂) (b : Fin n → EReal)
    (x1' x2' : FVec Ideal ⟨2, ![a', K]⟩ φ₁') (w1' w2' : FVec Ideal ⟨2, ![K, n']⟩ φ₂') (b' : Fin n' → EReal)
    (r : Fin a) (q : Fin n) (r' : Fin a') (q' : Fin n')
    (hx1 : ∀ k, x1 (ix2 r k) = x1' (ix2 r' k)) (hx2 : ∀ k, x2 (ix2 r k) = x2' (ix2 r' k))
    (hw1 : ∀ k, w1 (ix2 k q) = w1' (ix2 k q')) (hw2 : ∀ k, w2 (ix2 k q) = w2' (ix2 k q')) (hb : b q = b' q') :
    entry x1 x2 w1 w2 b r q = entry x1' x2' w1' w2' b' r' q' := by
  have h1 : (∑ k : Fin K, x1 (ix2 r k) * w1 (ix2 k q)) = ∑ k : Fin K, x1' (ix2 r' k) * w1' (ix2 k q') :=
    Finset.sum_congr rfl fun k _ => by rw [hx1 k, hw1 k]
  have h2 : (∑ k : Fin K, x2 (ix2 r k) * w2 (ix2 k q)) = ∑ k : Fin K, x2' (ix2 r' k) * w2' (ix2 k q') :=
    Finset.sum_congr rfl fun k _ => by rw [hx2 k, hw2 k]
  unfold entry
  rw [h1, h2, hb]

/-- Two products into zero accumulators, added, plus a one-row bias repeated down the rows: at an entry. -/
theorem kernel_entry {a K n : ℕ} {φ₁ φ₂ : FTy} (d : DotDims ⟨2, ![a, K]⟩ ⟨2, ![K, n]⟩ ⟨2, ![a, n]⟩)
    (hr : d.contr.rank = 1) (hs : d.contr.size ⟨0, by omega⟩ = K)
    (hl0 : ∀ i q, (d.lhsIdx i q 0).val = (i 0).val) (hl1 : ∀ i q, (d.lhsIdx i q 1).val = (q ⟨0, by omega⟩).val)
    (hr0 : ∀ i q, (d.rhsIdx i q 0).val = (q ⟨0, by omega⟩).val) (hr1 : ∀ i q, (d.rhsIdx i q 1).val = (i 1).val)
    (prec : Option ContractPrecision) (x1 x2 : FVec Ideal ⟨2, ![a, K]⟩ φ₁) (w1 w2 : FVec Ideal ⟨2, ![K, n]⟩ φ₂)
    (b : FVec Ideal ⟨2, ![1, n]⟩ .f32) (hb : (⟨2, ![1, n]⟩ : Shape).Broadcasts ⟨2, ![a, n]⟩) (hn : n ≠ 1)
    (r : Fin a) (q : Fin n) :
    addf (addf (matmul d prec x1 w1 (constant (F := Ideal) ⟨2, ![a, n]⟩ .f32 0x00000000#32))
        (matmul d prec x2 w2 (constant (F := Ideal) ⟨2, ![a, n]⟩ .f32 0x00000000#32)))
      (broadcastTo ⟨2, ![a, n]⟩ b hb) (ix2 r q)
      = entry x1 x2 w1 w2 (fun q => b (ix2 0 q)) r q := by
  rw [addf_apply, addf_apply, RowOps.matmul_zero_entry d hr hs hl0 hl1 hr0 hr1,
    RowOps.matmul_zero_entry d hr hs hl0 hl1 hr0 hr1]
  rw [broadcastTo_apply b hb (ix2 r q) (ix2 0 q) (fun ax => by
    match ax with
    | ⟨0, _⟩ => simp
    | ⟨1, _⟩ => simp [hn])]
  rfl

/-- A vector laid out as one row, read at column `q`. -/
theorem row_of_vector {n : ℕ} {α : Type} (b : (⟨1, ![n]⟩ : Shape).Idx → α)
    (h : (⟨1, ![n]⟩ : Shape).ShapeCasts ⟨2, ![1, n]⟩) (q : Fin n) :
    shapeCast ⟨2, ![1, n]⟩ b h (ix2 0 q) = b (ix1 q) := by
  refine (shapeCast_addUnit_apply ![n] b h (ix2 0 q)).trans (congrArg b ?_)
  funext a
  match a with
  | ⟨0, _⟩ => rfl

/-- A bias vector laid out as one row and repeated down the rows, at an entry. -/
theorem bias_entry {a n : ℕ} {α : Type} (b : (⟨1, ![n]⟩ : Shape).Idx → α)
    (h1 : (⟨1, ![n]⟩ : Shape).BroadcastsInDim ⟨2, ![1, n]⟩ ![1])
    (h2 : (⟨2, ![1, n]⟩ : Shape).BroadcastsInDim ⟨2, ![a, n]⟩ ![0, 1]) (hn : n ≠ 1) (r : Fin a) (q : Fin n) :
    broadcastInDim ⟨2, ![a, n]⟩ ![0, 1] h2 (broadcastInDim ⟨2, ![1, n]⟩ ![1] h1 b) (ix2 r q) = b (ix1 q) := by
  rw [broadcastInDim_apply ![0, 1] h2 _ (ix2 r q) (ix2 0 q) (fun ax => by
    match ax with
    | ⟨0, _⟩ => simp
    | ⟨1, _⟩ => simp [hn]; rfl)]
  rw [broadcastInDim_apply ![1] h1 b (ix2 0 q) (ix1 q) (fun ax => by
    match ax with
    | ⟨0, _⟩ => simp [hn]; rfl)]

/-- Two host products, added, plus a bias vector laid out as one row and repeated down the rows: at an entry. -/
theorem host_entry {a K n : ℕ} {φ₁ φ₂ : FTy} (d : DotDims ⟨2, ![a, K]⟩ ⟨2, ![K, n]⟩ ⟨2, ![a, n]⟩)
    (hr : d.contr.rank = 1) (hs : d.contr.size ⟨0, by omega⟩ = K)
    (hl0 : ∀ i q, (d.lhsIdx i q 0).val = (i 0).val) (hl1 : ∀ i q, (d.lhsIdx i q 1).val = (q ⟨0, by omega⟩).val)
    (hr0 : ∀ i q, (d.rhsIdx i q 0).val = (q ⟨0, by omega⟩).val) (hr1 : ∀ i q, (d.rhsIdx i q 1).val = (i 1).val)
    (prec : Option ContractPrecision) (x1 x2 : FVec Ideal ⟨2, ![a, K]⟩ φ₁) (w1 w2 : FVec Ideal ⟨2, ![K, n]⟩ φ₂)
    (b : FVec Ideal ⟨1, ![n]⟩ .f32)
    (h1 : (⟨1, ![n]⟩ : Shape).BroadcastsInDim ⟨2, ![1, n]⟩ ![1])
    (h2 : (⟨2, ![1, n]⟩ : Shape).BroadcastsInDim ⟨2, ![a, n]⟩ ![0, 1]) (hn : n ≠ 1)
    (r : Fin a) (q : Fin n) :
    addf (addf (Host.dotGeneral (F := Ideal) d prec x1 w1) (Host.dotGeneral (F := Ideal) d prec x2 w2))
      (broadcastInDim ⟨2, ![a, n]⟩ ![0, 1] h2 (broadcastInDim ⟨2, ![1, n]⟩ ![1] h1 b)) (ix2 r q)
      = entry x1 x2 w1 w2 (fun q => b (ix1 q)) r q := by
  rw [addf_apply, addf_apply, RowOps.dotGeneral_entry d hr hs hl0 hl1 hr0 hr1,
    RowOps.dotGeneral_entry d hr hs hl0 hl1 hr0 hr1]
  rw [bias_entry b h1 h2 hn r q]
  rfl

/-- A sum over `K + K'` terms is the sum of its first `K` and its last `K'` terms. -/
theorem sum_split {K K' : ℕ} (f : Fin (K + K') → EReal) :
    ∑ k : Fin (K + K'), f k = (∑ k : Fin K, f (Fin.castAdd K' k)) + ∑ k : Fin K', f (Fin.natAdd K k) :=
  Fin.sum_univ_add f

end Cert.DualLinear
-- ==== Proof.Layer.lean ====
/-
  The network's three dense stages as functions of whole arrays, index by index, on the extended reals.

  A mean-aggregation layer takes, per node, the sum `S` of its in-neighbours' feature rows, the node's
  in-degree as a one-column array `D`, the node's own features `H`, two weight matrices and a row of biases:

      layer S D H Wl Wr B (r, q) = (∑ₖ (S(r,k) / max(D(r,0), 1)) · Wl(k,q)) + (∑ₖ H(r,k) · Wr(k,q)) + B(0,q)

  and `layerRelu` clamps that below at zero.  The decoder scores a pair of embedded rows `E0`, `E1`:

      hidden E0 E1 Wa Wb B (r, q) = max((∑ₖ E0(r,k) · Wa(k,q)) + (∑ₖ E1(r,k) · Wb(k,q)) + B(0,q), 0)
      score  …  w b (r, 0)       = (∑ₖ hidden(r,k) · w(k,0)) + b(0,0)

  Every function is stated for arbitrary extents, so that the same definition reads a row block and the whole array.
-/
import Idealize.ShloMosaic.Lib.Pipeline.Value
import Idealize.ShloMosaic.Lib.ValueIdx
import Idealize.ShloMosaic.PureOps.Ideal.Laws
import proofs.«164268_j10651518894409_1_alg».proof.Proof.LibDualLinear

noncomputable section

namespace Cert.Sage

open Idealize.ShloMosaic Idealize.ShloMosaic.ValueIdx
open scoped BigOperators

/-- The value of the single-precision word for one, and for zero. -/
abbrev one : EReal := Ideal.ofBits .f32 0x3F800000#32
abbrev zero : EReal := Ideal.ofBits .f32 0x00000000#32

/-- Neighbour sums divided by the in-degree clamped below at one. -/
def mean {a K : ℕ} (S : FVec Ideal ⟨2, ![a, K]⟩ .f32) (D : FVec Ideal ⟨2, ![a, 1]⟩ .f32) :
    FVec Ideal ⟨2, ![a, K]⟩ .f32 :=
  fun i => Ideal.div (S i) (max (D (ix2 (i 0) (0 : Fin 1))) one)

/-- One mean-aggregation layer, before the clamp. -/
def layer {a K n : ℕ} (S : FVec Ideal ⟨2, ![a, K]⟩ .f32) (D : FVec Ideal ⟨2, ![a, 1]⟩ .f32)
    (H : FVec Ideal ⟨2, ![a, K]⟩ .f32) (Wl Wr : FVec Ideal ⟨2, ![K, n]⟩ .f32) (B : FVec Ideal ⟨2, ![1, n]⟩ .f32) :
    FVec Ideal ⟨2, ![a, n]⟩ .f32 :=
  fun i => DualLinear.entry (mean S D) H Wl Wr (fun q => B (ix2 0 q)) (i 0) (i 1)

/-- One mean-aggregation layer clamped below at zero. -/
def layerRelu {a K n : ℕ} (S : FVec Ideal ⟨2, ![a, K]⟩ .f32) (D : FVec Ideal ⟨2, ![a, 1]⟩ .f32)
    (H : FVec Ideal ⟨2, ![a, K]⟩ .f32) (Wl Wr : FVec Ideal ⟨2, ![K, n]⟩ .f32) (B : FVec Ideal ⟨2, ![1, n]⟩ .f32) :
    FVec Ideal ⟨2, ![a, n]⟩ .f32 :=
  fun i => max (layer S D H Wl Wr B i) zero

/-- The decoder's hidden row: two products and a bias, clamped below at zero. -/
def hidden {p K n : ℕ} (E0 E1 : FVec Ideal ⟨2, ![p, K]⟩ .f32) (Wa Wb : FVec Ideal ⟨2, ![K, n]⟩ .f32)
    (B : FVec Ideal ⟨2, ![1, n]⟩ .f32) : FVec Ideal ⟨2, ![p, n]⟩ .f32 :=
  fun i => max (DualLinear.entry E0 E1 Wa Wb (fun q => B (ix2 0 q)) (i 0) (i 1)) zero

/-- The decoder's score of a pair, as a one-column array. -/
def score {p K n : ℕ} (E0 E1 : FVec Ideal ⟨2, ![p, K]⟩ .f32) (Wa Wb : FVec Ideal ⟨2, ![K, n]⟩ .f32)
    (B : FVec Ideal ⟨2, ![1, n]⟩ .f32) (w : FVec Ideal ⟨2, ![n, 1]⟩ .f32) (b : FVec Ideal ⟨2, ![1, 1]⟩ .f32) :
    FVec Ideal ⟨2, ![p, 1]⟩ .f32 :=
  fun i => (∑ k : Fin n, hidden E0 E1 Wa Wb B (ix2 (i 0) k) * w (ix2 k (0 : Fin 1))) + b (ix2 (0 : Fin 1) (0 : Fin 1))

/-- The mean at row `r` of a block is the mean at the matching row of the whole array. -/
theorem mean_congr {a a' K : ℕ} (S : FVec Ideal ⟨2, ![a, K]⟩ .f32) (D : FVec Ideal ⟨2, ![a, 1]⟩ .f32)
    (S' : FVec Ideal ⟨2, ![a', K]⟩ .f32) (D' : FVec Ideal ⟨2, ![a', 1]⟩ .f32) (r : Fin a) (r' : Fin a') (k : Fin K)
    (hS : S (ix2 r k) = S' (ix2 r' k)) (hD : D (ix2 r 0) = D' (ix2 r' 0)) :
    mean S D (ix2 r k) = mean S' D' (ix2 r' k) := by
  show Ideal.div (S (ix2 r k)) (max (D (ix2 r 0)) one) = Ideal.div (S' (ix2 r' k)) (max (D' (ix2 r' 0)) one)
  rw [hS, hD]

/-- A layer's entry depends only on the node's own row of `S`, `D`, `H`: a row block and the whole array that
    agree on that row give the same entry. -/
theorem layer_congr {a a' K n : ℕ} (S H : FVec Ideal ⟨2, ![a, K]⟩ .f32) (D : FVec Ideal ⟨2, ![a, 1]⟩ .f32)
    (S' H' : FVec Ideal ⟨2, ![a', K]⟩ .f32) (D' : FVec Ideal ⟨2, ![a', 1]⟩ .f32)
    (Wl Wr : FVec Ideal ⟨2, ![K, n]⟩ .f32) (B : FVec Ideal ⟨2, ![1, n]⟩ .f32) (r : Fin a) (r' : Fin a') (q : Fin n)
    (hS : ∀ k, S (ix2 r k) = S' (ix2 r' k)) (hD : D (ix2 r 0) = D' (ix2 r' 0)) (hH : ∀ k, H (ix2 r k) = H' (ix2 r' k)) :
    layer S D H Wl Wr B (ix2 r q) = layer S' D' H' Wl Wr B (ix2 r' q) :=
  DualLinear.entry_congr _ _ _ _ _ _ _ _ _ _ r q r' q (fun k => mean_congr S D S' D' r r' k (hS k) hD) hH
    (fun _ => rfl) (fun _ => rfl) rfl

theorem layerRelu_congr {a a' K n : ℕ} (S H : FVec Ideal ⟨2, ![a, K]⟩ .f32) (D : FVec Ideal ⟨2, ![a, 1]⟩ .f32)
    (S' H' : FVec Ideal ⟨2, ![a', K]⟩ .f32) (D' : FVec Ideal ⟨2, ![a', 1]⟩ .f32)
    (Wl Wr : FVec Ideal ⟨2, ![K, n]⟩ .f32) (B : FVec Ideal ⟨2, ![1, n]⟩ .f32) (r : Fin a) (r' : Fin a') (q : Fin n)
    (hS : ∀ k, S (ix2 r k) = S' (ix2 r' k)) (hD : D (ix2 r 0) = D' (ix2 r' 0)) (hH : ∀ k, H (ix2 r k) = H' (ix2 r' k)) :
    layerRelu S D H Wl Wr B (ix2 r q) = layerRelu S' D' H' Wl Wr B (ix2 r' q) :=
  congrArg (max · zero) (layer_congr S H D S' H' D' Wl Wr B r r' q hS hD hH)

/-- The hidden row of a pair depends only on the pair's own rows. -/
theorem hidden_congr {p p' K n : ℕ} (E0 E1 : FVec Ideal ⟨2, ![p, K]⟩ .f32) (E0' E1' : FVec Ideal ⟨2, ![p', K]⟩ .f32)
    (Wa Wb : FVec Ideal ⟨2, ![K, n]⟩ .f32) (B : FVec Ideal ⟨2, ![1, n]⟩ .f32) (r : Fin p) (r' : Fin p') (q : Fin n)
    (h0 : ∀ k, E0 (ix2 r k) = E0' (ix2 r' k)) (h1 : ∀ k, E1 (ix2 r k) = E1' (ix2 r' k)) :
    hidden E0 E1 Wa Wb B (ix2 r q) = hidden E0' E1' Wa Wb B (ix2 r' q) :=
  congrArg (max · zero) (DualLinear.entry_congr _ _ _ _ _ _ _ _ _ _ r q r' q h0 h1 (fun _ => rfl) (fun _ => rfl) rfl)

/-- The score of a pair depends only on the pair's own rows. -/
theorem score_congr {p p' K n : ℕ} (E0 E1 : FVec Ideal ⟨2, ![p, K]⟩ .f32) (E0' E1' : FVec Ideal ⟨2, ![p', K]⟩ .f32)
    (Wa Wb : FVec Ideal ⟨2, ![K, n]⟩ .f32) (B : FVec Ideal ⟨2, ![1, n]⟩ .f32) (w : FVec Ideal ⟨2, ![n, 1]⟩ .f32)
    (b : FVec Ideal ⟨2, ![1, 1]⟩ .f32) (r : Fin p) (r' : Fin p') (u : Fin 1)
    (h0 : ∀ k, E0 (ix2 r k) = E0' (ix2 r' k)) (h1 : ∀ k, E1 (ix2 r k) = E1' (ix2 r' k)) :
    score E0 E1 Wa Wb B w b (ix2 r u) = score E0' E1' Wa Wb B w b (ix2 r' u) := by
  show (∑ k : Fin n, hidden E0 E1 Wa Wb B (ix2 r k) * w (ix2 k 0)) + b (ix2 0 0)
    = (∑ k : Fin n, hidden E0' E1' Wa Wb B (ix2 r' k) * w (ix2 k 0)) + b (ix2 0 0)
  rw [Finset.sum_congr rfl fun k _ => by rw [hidden_congr E0 E1 E0' E1' Wa Wb B r r' k h0 h1]]

end Cert.Sage

end
-- ==== Proof.PlainDot.lean ====
/-
  A plain matrix product's dimension numbers — contract the left operand's second axis with the right operand's
  first, no batch axes — as six coordinate facts: the contraction has one axis of the shared extent; the left
  operand is read at (output row, contraction coordinate) and the right at (contraction coordinate, output column).
  With these, two products plus a bias row read at an entry as `Cert.DualLinear.entry`, in the kernel's spelling
  (products into zero accumulators) and in the host's alike.
-/
import Idealize.ShloMosaic.Lib.Pipeline.Value
import Idealize.ShloMosaic.Lib.ValueIdx
import Idealize.ShloMosaic.PureOps.Ideal.Laws
import proofs.«164268_j10651518894409_1_alg».proof.Proof.LibDualLinear

namespace Cert.Sage

open Idealize.ShloMosaic Idealize.ShloMosaic.ValueIdx
open scoped BigOperators

/-- The coordinate facts of a plain product `[a, K] × [K, b] → [a, b]`. -/
structure Plain {a K b : ℕ} (d : DotDims ⟨2, ![a, K]⟩ ⟨2, ![K, b]⟩ ⟨2, ![a, b]⟩) : Prop where
  hr : d.contr.rank = 1
  hs : d.contr.size ⟨0, by omega⟩ = K
  hl0 : ∀ i q, (d.lhsIdx i q 0).val = (i 0).val
  hl1 : ∀ i q, (d.lhsIdx i q 1).val = (q ⟨0, by omega⟩).val
  hr0 : ∀ i q, (d.rhsIdx i q 0).val = (q ⟨0, by omega⟩).val
  hr1 : ∀ i q, (d.rhsIdx i q 1).val = (i 1).val

/-- The facts, for a concrete record of dimension numbers. -/
macro "plain_dims" d:term : term => `(
  (⟨rfl, rfl,
    fun i q => by
      unfold DotDims.lhsIdx
      rw [dif_neg (show ¬(0 : Fin 2) ∈ ($d).lhsBatch by decide), dif_pos (show (0 : Fin 2) ∈ ($d).lhsNonContracting by decide)]
      rfl,
    fun i q => ($d).lhsIdx_val_of_single rfl i q,
    fun i q => ($d).rhsIdx_val_of_single rfl i q,
    fun i q => by
      unfold DotDims.rhsIdx
      rw [dif_neg (show ¬(1 : Fin 2) ∈ ($d).rhsBatch by decide), dif_pos (show (1 : Fin 2) ∈ ($d).rhsNonContracting by decide)]
      rfl⟩ : Cert.Sage.Plain $d))

variable {a K n : ℕ} {φ₁ φ₂ : FTy} {d : DotDims ⟨2, ![a, K]⟩ ⟨2, ![K, n]⟩ ⟨2, ![a, n]⟩}

/-- One product into a zero accumulator, at an entry. -/
theorem Plain.matmul_entry (P : Plain d) (prec : Option ContractPrecision) (x : FVec Ideal ⟨2, ![a, K]⟩ φ₁)
    (w : FVec Ideal ⟨2, ![K, n]⟩ φ₂) (r : Fin a) (q : Fin n) :
    matmul d prec x w (constant (F := Ideal) ⟨2, ![a, n]⟩ .f32 0x00000000#32) (ix2 r q)
      = ∑ k : Fin K, x (ix2 r k) * w (ix2 k q) :=
  RowOps.matmul_zero_entry d P.hr P.hs P.hl0 P.hl1 P.hr0 P.hr1 prec x w r q

/-- One host product, at an entry. -/
theorem Plain.dot_entry (P : Plain d) (prec : Option ContractPrecision) (x : FVec Ideal ⟨2, ![a, K]⟩ φ₁)
    (w : FVec Ideal ⟨2, ![K, n]⟩ φ₂) (r : Fin a) (q : Fin n) :
    Host.dotGeneral (F := Ideal) d prec x w (ix2 r q) = ∑ k : Fin K, x (ix2 r k) * w (ix2 k q) :=
  RowOps.dotGeneral_entry d P.hr P.hs P.hl0 P.hl1 P.hr0 P.hr1 prec x w r q

/-- Two products into zero accumulators, added, plus a one-row bias repeated down the rows, at an entry. -/
theorem Plain.kernel_entry (P : Plain d) (prec : Option ContractPrecision) (x1 x2 : FVec Ideal ⟨2, ![a, K]⟩ φ₁)
    (w1 w2 : FVec Ideal ⟨2, ![K, n]⟩ φ₂) (b : FVec Ideal ⟨2, ![1, n]⟩ .f32)
    (hb : (⟨2, ![1, n]⟩ : Shape).Broadcasts ⟨2, ![a, n]⟩) (hn : n ≠ 1) (r : Fin a) (q : Fin n) :
    addf (addf (matmul d prec x1 w1 (constant (F := Ideal) ⟨2, ![a, n]⟩ .f32 0x00000000#32))
        (matmul d prec x2 w2 (constant (F := Ideal) ⟨2, ![a, n]⟩ .f32 0x00000000#32)))
      (broadcastTo ⟨2, ![a, n]⟩ b hb) (ix2 r q)
      = DualLinear.entry x1 x2 w1 w2 (fun q => b (ix2 0 q)) r q :=
  DualLinear.kernel_entry d P.hr P.hs P.hl0 P.hl1 P.hr0 P.hr1 prec x1 x2 w1 w2 b hb hn r q

/-- Two host products, added, plus a bias vector laid out as one row and repeated down the rows, at an entry. -/
theorem Plain.host_entry (P : Plain d) (prec : Option ContractPrecision) (x1 x2 : FVec Ideal ⟨2, ![a, K]⟩ φ₁)
    (w1 w2 : FVec Ideal ⟨2, ![K, n]⟩ φ₂) (b : FVec Ideal ⟨1, ![n]⟩ .f32)
    (h1 : (⟨1, ![n]⟩ : Shape).BroadcastsInDim ⟨2, ![1, n]⟩ ![1])
    (h2 : (⟨2, ![1, n]⟩ : Shape).BroadcastsInDim ⟨2, ![a, n]⟩ ![0, 1]) (hn : n ≠ 1) (r : Fin a) (q : Fin n) :
    addf (addf (Host.dotGeneral (F := Ideal) d prec x1 w1) (Host.dotGeneral (F := Ideal) d prec x2 w2))
      (broadcastInDim ⟨2, ![a, n]⟩ ![0, 1] h2 (broadcastInDim ⟨2, ![1, n]⟩ ![1] h1 b)) (ix2 r q)
      = DualLinear.entry x1 x2 w1 w2 (fun q => b (ix1 q)) r q :=
  DualLinear.host_entry d P.hr P.hs P.hl0 P.hl1 P.hr0 P.hr1 prec x1 x2 w1 w2 b h1 h2 hn r q

end Cert.Sage
-- ==== Proof.LibColumnForms.lean ====
/-
  Small general lemmas that read, at an index written by coordinates, the layout steps a row-wise
  reduction with kept dimensions goes through: the column casts [a] → [a, 1] and [a, 1] → [a, b],
  a sum and a maximum along the lanes of a matrix, and a plain M×K by K×N matrix product into a zero
  accumulator. All are stated over variables of literal-rank shapes and `Fin` coordinates, at the
  extended reals.
-/
import Idealize.ShloMosaic.Lib.ValueLayout
import Idealize.ShloMosaic.PureOps.Ideal.Laws

noncomputable section

namespace Cert.Attn.Pay

open Idealize.ShloMosaic Idealize.ShloMosaic.ValueIdx

variable {α : Type}

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A `[1, 1, a, b]` array cast to `[a, b]` reads, at `(i, j)`, the operand at `(0, 0, i, j)`. -/
theorem shapeCast_11ab_ab_apply {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp only [Nat.zero_mul, Nat.zero_add])

/-- An `[a, b]` array cast to `[1, 1, a, b]` reads, at `(u, w, i, j)`, the operand at `(i, j)`, whatever the
    two unit coordinates. -/
theorem shapeCast_ab_11ab_apply {a b : ℕ} (x : (⟨2, ![a, b]⟩ : Shape).Idx → α)
    (h : (⟨2, ![a, b]⟩ : Shape).ShapeCasts ⟨4, ![1, 1, a, b]⟩) (u w : Fin 1) (i : Fin a) (j : Fin b) :
    shapeCast ⟨4, ![1, 1, a, b]⟩ x h (ix4 u w i j) = x (ix2 i j) :=
  shapeCast_apply x h _ _ (by
    have hu : u.val = 0 := by omega
    have hw : w.val = 0 := by omega
    rw [Shape.rowMajor_val_four, Shape.rowMajor_val_two]
    show i.val * b + j.val = ((u.val * 1 + w.val) * a + i.val) * b + j.val
    rw [hu, hw, Nat.zero_mul, Nat.zero_add])

/-- A reciprocal square root at an index is the extended reals' one of the element … -/
theorem rsqrt_apply {s : Shape} {φ : FTy} (x : FVec Ideal s φ) (i : s.Idx) : rsqrt x i = Ideal.rsqrt (x i) := rfl
/-- … and an exponential the extended reals' exponential of the element. -/
theorem exp_apply {s : Shape} {φ : FTy} (x : FVec Ideal s φ) (i : s.Idx) : exp x i = Ideal.exp (x i) := rfl

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The sum along the lanes of an `[a, b]` matrix, read at row `i`: the sum over the lanes of that row. -/
theorem laneSum_apply {a b : ℕ} (src : FVec Ideal ⟨2, ![a, b]⟩ .f32) (h : (⟨2, ![a, b]⟩ : Shape).Reduces [1] ⟨1, ![a]⟩)
    (hφ : FKind.Formats .f32) (hacc : (0x00000000#32 : BitVec 32) = 0x00000000#32) (i : Fin a) :
    multiReduction .add [1] ⟨1, ![a]⟩ src 0x00000000#32 h hφ hacc (ix1 i) = ∑ k : Fin b, src (ix2 i k) := by
  refine (Ideal.multiReduction_add_single src _ h hφ hacc (ix1 i)).trans ?_
  refine Finset.sum_congr rfl fun k _ => congrArg src ?_
  funext c
  match c with
  | ⟨0, _⟩ => rfl
  | ⟨1, _⟩ => rfl

/-- The maximum along the lanes of an `[a, b]` matrix, read at row `i`: the fold of `max` over the lanes of that
    row, from the value of the starting word. -/
theorem laneMax_apply {a b : ℕ} (src : FVec Ideal ⟨2, ![a, b]⟩ .f32) (h : (⟨2, ![a, b]⟩ : Shape).Reduces [1] ⟨1, ![a]⟩)
    (hφ : FKind.Formats .f32) (hacc : (0xFF800000#32 : BitVec 32) = 0xFF800000#32) (i : Fin a) :
    multiReduction .maximumf [1] ⟨1, ![a]⟩ src 0xFF800000#32 h hφ hacc (ix1 i)
      = (Finset.univ : Finset (Fin b)).fold max (Ideal.ofBits .f32 0xFF800000#32) (fun k => src (ix2 i k)) := by
  refine (Ideal.multiReduction_maximumf_single src _ h hφ hacc (ix1 i)).trans ?_
  refine congrArg (fun f => (Finset.univ : Finset (Fin b)).fold max (Ideal.ofBits .f32 0xFF800000#32) f) ?_
  funext k
  refine congrArg src ?_
  funext c
  match c with
  | ⟨0, _⟩ => rfl
  | ⟨1, _⟩ => rfl

/-- A plain `M × K` by `K × N` matrix product into the zero accumulator, read at `(i, j)`: the sum over the
    contraction coordinate of the operands' products. `D` is any record of those dimension numbers. -/
theorem matmul_plain_apply {M K N : ℕ} {φ₁ φ₂ : FTy} (D : DotDims ⟨2, ![M, K]⟩ ⟨2, ![K, N]⟩ ⟨2, ![M, N]⟩)
    (hD : D = DotDims.plain M K N) (prec : Option ContractPrecision)
    (lhs : FVec Ideal ⟨2, ![M, K]⟩ φ₁) (rhs : FVec Ideal ⟨2, ![K, N]⟩ φ₂) (i : Fin M) (j : Fin N) :
    matmul D prec lhs rhs (constant (F := Ideal) ⟨2, ![M, N]⟩ .f32 0x00000000#32) (ix2 i j)
      = ∑ k : Fin K, lhs (ix2 i k) * rhs (ix2 k j) := by
  subst hD
  simp only [matmul]
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 i j) ((contrEquiv1 (DotDims.plain M K N) K rfl rfl).symm k) = ix2 i k :=
    funext fun a => Fin.ext (by
      match a with
      | ⟨0, _⟩ => rfl
      | ⟨1, _⟩ => exact ((DotDims.plain M K N).lhsIdx_val_of_single rfl _ _).trans hk)
  have er : (DotDims.plain M K N).rhsIdx (ix2 i j) ((contrEquiv1 (DotDims.plain M K N) K rfl rfl).symm k) = ix2 k j :=
    funext fun a => Fin.ext (by
      match a with
      | ⟨0, _⟩ => exact ((DotDims.plain M K N).rhsIdx_val_of_single rfl _ _).trans hk
      | ⟨1, _⟩ => rfl)
  rw [el, er]

end Cert.Attn.Pay

end
-- ==== Proof.Payload.lean ====
/-
  What each kernel body stores, read at an entry.

  All three bodies load whole blocks, change formats (the identity on the extended reals), and compute two matrix
  products into zero accumulators, their sum, a bias row repeated down the rows and — in the first layer and in the
  decoder — a clamp below at zero.  The layer bodies first divide the block of neighbour sums by the block's degree
  column clamped below at one; the decoder multiplies its hidden rows into a one-column weight and adds a scalar
  bias.  Read at the entry `(r, q)` the stored value is the specification's function (`Cert.Sage.layerRelu`,
  `layer`, `score`) of the loaded blocks.
-/
import proofs.«164268_j10651518894409_1_alg».proof.Proof.Gen.KernelIdeal.Skeleton
import proofs.«164268_j10651518894409_1_alg».proof.Proof.Layer
import proofs.«164268_j10651518894409_1_alg».proof.Proof.PlainDot
import proofs.«164268_j10651518894409_1_alg».proof.Proof.LibColumnForms

noncomputable section

namespace Cert.KernelIdeal.Pay

open Cert.KernelIdeal Cert.KernelIdeal.Gen
open Idealize.ShloMosaic Idealize.ShloMosaic.ValueIdx
open scoped BigOperators

theorem plain0 : Sage.Plain dot_S5000x128_S128x64_S5000x64_1_0_0_1_n_n := plain_dims dot_S5000x128_S128x64_S5000x64_1_0_0_1_n_n
theorem plain1 : Sage.Plain dot_S5000x64_S64x64_S5000x64_1_0_0_1_n_n := plain_dims dot_S5000x64_S64x64_S5000x64_1_0_0_1_n_n
theorem plain2a : Sage.Plain dot_S10000x64_S64x64_S10000x64_1_0_0_1_n_n := plain_dims dot_S10000x64_S64x64_S10000x64_1_0_0_1_n_n
theorem plain2b : Sage.Plain dot_S10000x64_S64x1_S10000x1_1_0_0_1_n_n := plain_dims dot_S10000x64_S64x1_S10000x1_1_0_0_1_n_n

/-- The degree column clamped at one, repeated along the lanes and divided into the block of sums: the mean. -/
theorem mean_block {a K : ℕ} (x0 : FVec Ideal ⟨2, ![a, K]⟩ .f32) (x1 : FVec Ideal ⟨2, ![a, 1]⟩ .f32)
    (h0 : (⟨2, ![a, K]⟩ : Shape).ShapeCasts ⟨2, ![a, K]⟩) (h1 : (⟨2, ![a, 1]⟩ : Shape).ShapeCasts ⟨2, ![a, 1]⟩)
    (hb : (⟨2, ![a, 1]⟩ : Shape).Broadcasts ⟨2, ![a, K]⟩) (hlt : (FTy.bf16).bits < (FTy.f32).bits) (r : Fin a) (k : Fin K) :
    (truncf .bf16 (divf (shapeCast ⟨2, ![a, K]⟩ x0 h0)
        (broadcastTo ⟨2, ![a, K]⟩ (maximumf (shapeCast ⟨2, ![a, 1]⟩ x1 h1)
          (broadcast ⟨2, ![a, 1]⟩ (Scalar.ofBits (F := Ideal) .f32 0x3F800000#32))) hb)) hlt : FVec Ideal ⟨2, ![a, K]⟩ .bf16) (ix2 r k)
      = Sage.mean x0 x1 (ix2 r k) := by
  rw [truncf_apply, divf_apply, shapeCast_self, Attn.Pay.broadcastTo_a1_ab_apply, maximumf_apply, shapeCast_self, broadcast_apply]
  rfl

/-- The first layer's body stores the clamped layer of its blocks. -/
theorem pay0_apply (x0 : Vec Ideal S5000x128 .f32) (x1 : Vec Ideal S5000x1 .f32) (x2 : Vec Ideal S5000x128 .f32)
    (x3 x4 : Vec Ideal S128x64 .f32) (x5 : Vec Ideal S1x64 .f32) (r : Fin 5000) (q : Fin 64) :
    k0_pay1 x0 x1 x2 x3 x4 x5 (ix2 r q) = Sage.layerRelu x0 x1 x2 x3 x4 x5 (ix2 r q) := by
  unfold k0_pay1
  rw [maximumf_apply, broadcast_apply, plain0.kernel_entry none _ _ _ _ _ _ (by decide) r q]
  refine congrArg (max · Sage.zero) ?_
  exact DualLinear.entry_congr _ _ _ _ _ _ _ _ _ _ r q r q (fun k => mean_block x0 x1 _ _ _ _ r k) (fun k => rfl)
    (fun k => rfl) (fun k => rfl) (congrFun (shapeCast_self x5 _) _)

/-- The second layer's body stores the layer of its blocks. -/
theorem pay1_apply (x0 : Vec Ideal S5000x64 .f32) (x1 : Vec Ideal S5000x1 .f32) (x2 : Vec Ideal S5000x64 .f32)
    (x3 x4 : Vec Ideal S64x64 .f32) (x5 : Vec Ideal S1x64 .f32) (r : Fin 5000) (q : Fin 64) :
    k1_pay1 x0 x1 x2 x3 x4 x5 (ix2 r q) = Sage.layer x0 x1 x2 x3 x4 x5 (ix2 r q) := by
  unfold k1_pay1
  rw [plain1.kernel_entry none _ _ _ _ _ _ (by decide) r q]
  exact DualLinear.entry_congr _ _ _ _ _ _ _ _ _ _ r q r q (fun k => mean_block x0 x1 _ _ _ _ r k)
    (fun k => congrFun (shapeCast_self x2 _) _) (fun k => rfl) (fun k => rfl) (congrFun (shapeCast_self x5 _) _)

/-- The decoder's body stores the score of its pair of blocks. -/
theorem pay2_apply (x0 x1 : Vec Ideal S10000x64 .f32) (x2 x3 : Vec Ideal S64x64 .f32) (x4 : Vec Ideal S1x64 .f32)
    (x5 : Vec Ideal S64x1 .f32) (x6 : Vec Ideal S1x1 .f32) (r : Fin 10000) (u : Fin 1) :
    k2_pay1 x0 x1 x2 x3 x4 x5 x6 (ix2 r u) = Sage.score x0 x1 x2 x3 x4 x5 x6 (ix2 r u) := by
  obtain rfl : u = 0 := Subsingleton.elim _ _
  unfold k2_pay1
  rw [addf_apply, plain2b.matmul_entry none _ _ r 0]
  show _ + _ = (∑ k : Fin 64, Sage.hidden x0 x1 x2 x3 x4 (ix2 r k) * x5 (ix2 k 0)) + x6 (ix2 0 0)
  congr 1
  · refine Finset.sum_congr rfl fun k _ => ?_
    refine congrArg (· * x5 (ix2 k 0)) ?_
    rw [truncf_apply, maximumf_apply, broadcast_apply, plain2a.kernel_entry none _ _ _ _ _ _ (by decide) r k]
    refine congrArg (max · Sage.zero) ?_
    exact DualLinear.entry_congr _ _ _ _ _ _ _ _ _ _ r k r k (fun j => congrFun (shapeCast_self x0 _) _)
      (fun j => congrFun (shapeCast_self x1 _) _) (fun j => congrFun (shapeCast_self x2 _) _)
      (fun j => congrFun (shapeCast_self x3 _) _) (congrFun (shapeCast_self x4 _) _)
  · rw [broadcastTo_apply _ _ (ix2 r 0) (ix2 0 0) (fun ax => by
      match ax with
      | ⟨0, _⟩ => simp
      | ⟨1, _⟩ => simp), shapeCast_self]

end Cert.KernelIdeal.Pay

end
-- ==== Proof.Region0.lean ====
/-
  Region 0, from blocks to the array: the first layer: the clamped mean-aggregation layer of the neighbour sums, the degree column, the features, the two weight matrices and the bias row.

  The grid has 20 points; point `t` reads rows `5000·t … 5000·t + 4999` of each row-blocked input, the whole of each
  resident input, and writes back the same rows of the output.  What it writes back is the specification's function of
  the WHOLE entry arrays restricted to those rows — an output row depends only on the same row of the row-blocked
  inputs —, and the 20 row blocks tile the output array, so the array ends as that one function of the entry arrays.
  Everything is stated at an arbitrary valuation `V` of the buffers at the region's entry.
-/
import proofs.«164268_j10651518894409_1_alg».proof.Proof.Gen.KernelIdeal.Frame
import proofs.«164268_j10651518894409_1_alg».proof.Proof.Payload
import Idealize.ShloMosaic.Lib.Pipeline.Value

set_option maxRecDepth 16384

noncomputable section

namespace Cert.KernelIdeal.Region0

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: a row-blocked window is at block row `t`, a resident one at block `(0, 0)`. -/
theorem idx_facts : ∀ t : Fin cfg0.N, win0_0.index t (0 : Fin 2) = t.val
    ∧ win0_0.index t (1 : Fin 2) = 0
    ∧ win0_1.index t (0 : Fin 2) = t.val
    ∧ win0_1.index t (1 : Fin 2) = 0
    ∧ win0_2.index t (0 : Fin 2) = t.val
    ∧ win0_2.index t (1 : Fin 2) = 0
    ∧ win0_3.index t (0 : Fin 2) = 0
    ∧ win0_3.index t (1 : Fin 2) = 0
    ∧ win0_4.index t (0 : Fin 2) = 0
    ∧ win0_4.index t (1 : Fin 2) = 0
    ∧ win0_5.index t (0 : Fin 2) = 0
    ∧ win0_5.index t (1 : Fin 2) = 0
    ∧ win0_6.index t (0 : Fin 2) = t.val
    ∧ win0_6.index t (1 : Fin 2) = 0 :=
  (by decide +kernel : ∀ t : Fin grid0.N, _)

theorem lt_N (t : Fin cfg0.N) : t.val < 20 := lt_of_lt_of_eq t.isLt (N_0 : cfg0.N = 20)

/-- The output array as one function of the arrays the region finds. -/
abbrev whole (c : Dev nD) : S100000x64.Idx → EReal :=
  Sage.layerRelu (V c main_v18 : S100000x128.Idx → EReal) (V c main_v8 : S100000x1.Idx → EReal) (V c main_arg0 : S100000x128.Idx → EReal) (V c main_arg3 : S128x64.Idx → EReal) (V c main_arg4 : S128x64.Idx → EReal) (V c main_v19 : S1x64.Idx → EReal)

/-- Input window 0's block at point `t` is rows `5000·t … 5000·t + 4999` of its array. -/
theorem blk0 (c : Dev nD) (t : Fin cfg0.N) (x : S5000x128.Idx) (k : S100000x128.Idx)
    (hk0 : (k 0).val = 5000 * t.val + (x 0).val) (hk1 : (k 1).val = (x 1).val) :
    (iblk0 V c 0 t : Vec Ideal S5000x128 .f32) x = (V c main_v18 : S100000x128.Idx → EReal) k := by
  obtain ⟨e00, e01, e10, e11, e20, e21, e30, e31, e40, e41, e50, e51, eo0, eo1⟩ := idx_facts t
  unfold iblk0
  rw [View.read_apply]
  show V c main_v18 _ = V c main_v18 _
  congr 1
  funext a
  apply Fin.ext
  match a with
  | ⟨0, _⟩ => show win0_0.index t 0 * 5000 + 1 * (x 0).val = (k 0).val; rw [e00, hk0]; omega
  | ⟨1, _⟩ => show win0_0.index t 1 * 128 + 1 * (x 1).val = (k 1).val; rw [e01, hk1]; omega

/-- Input window 1's block at point `t` is rows `5000·t … 5000·t + 4999` of its array. -/
theorem blk1 (c : Dev nD) (t : Fin cfg0.N) (x : S5000x1.Idx) (k : S100000x1.Idx)
    (hk0 : (k 0).val = 5000 * t.val + (x 0).val) (hk1 : (k 1).val = (x 1).val) :
    (iblk0 V c 1 t : Vec Ideal S5000x1 .f32) x = (V c main_v8 : S100000x1.Idx → EReal) k := by
  obtain ⟨e00, e01, e10, e11, e20, e21, e30, e31, e40, e41, e50, e51, eo0, eo1⟩ := idx_facts t
  unfold iblk0
  rw [View.read_apply]
  show V c main_v8 _ = V c main_v8 _
  congr 1
  funext a
  apply Fin.ext
  match a with
  | ⟨0, _⟩ => show win0_1.index t 0 * 5000 + 1 * (x 0).val = (k 0).val; rw [e10, hk0]; omega
  | ⟨1, _⟩ => show win0_1.index t 1 * 1 + 1 * (x 1).val = (k 1).val; rw [e11, hk1]; omega

/-- Input window 2's block at point `t` is rows `5000·t … 5000·t + 4999` of its array. -/
theorem blk2 (c : Dev nD) (t : Fin cfg0.N) (x : S5000x128.Idx) (k : S100000x128.Idx)
    (hk0 : (k 0).val = 5000 * t.val + (x 0).val) (hk1 : (k 1).val = (x 1).val) :
    (iblk0 V c 2 t : Vec Ideal S5000x128 .f32) x = (V c main_arg0 : S100000x128.Idx → EReal) k := by
  obtain ⟨e00, e01, e10, e11, e20, e21, e30, e31, e40, e41, e50, e51, eo0, eo1⟩ := idx_facts t
  unfold iblk0
  rw [View.read_apply]
  show V c main_arg0 _ = V c main_arg0 _
  congr 1
  funext a
  apply Fin.ext
  match a with
  | ⟨0, _⟩ => show win0_2.index t 0 * 5000 + 1 * (x 0).val = (k 0).val; rw [e20, hk0]; omega
  | ⟨1, _⟩ => show win0_2.index t 1 * 128 + 1 * (x 1).val = (k 1).val; rw [e21, hk1]; omega

/-- Input window 3 is one block: at every point it is the whole array. -/
theorem blk3 (c : Dev nD) (t : Fin cfg0.N) :
    (iblk0 V c 3 t : Vec Ideal S128x64 .f32) = (V c main_arg3 : S128x64.Idx → EReal) := by
  obtain ⟨e00, e01, e10, e11, e20, e21, e30, e31, e40, e41, e50, e51, eo0, eo1⟩ := idx_facts t
  funext x
  unfold iblk0
  rw [View.read_apply]
  show V c main_arg3 _ = V c main_arg3 _
  congr 1
  funext a
  apply Fin.ext
  match a with
  | ⟨0, _⟩ => show win0_3.index t 0 * 128 + 1 * (x 0).val = (x 0).val; rw [e30]; omega
  | ⟨1, _⟩ => show win0_3.index t 1 * 64 + 1 * (x 1).val = (x 1).val; rw [e31]; omega

/-- Input window 4 is one block: at every point it is the whole array. -/
theorem blk4 (c : Dev nD) (t : Fin cfg0.N) :
    (iblk0 V c 4 t : Vec Ideal S128x64 .f32) = (V c main_arg4 : S128x64.Idx → EReal) := by
  obtain ⟨e00, e01, e10, e11, e20, e21, e30, e31, e40, e41, e50, e51, eo0, eo1⟩ := idx_facts t
  funext x
  unfold iblk0
  rw [View.read_apply]
  show V c main_arg4 _ = V c main_arg4 _
  congr 1
  funext a
  apply Fin.ext
  match a with
  | ⟨0, _⟩ => show win0_4.index t 0 * 128 + 1 * (x 0).val = (x 0).val; rw [e40]; omega
  | ⟨1, _⟩ => show win0_4.index t 1 * 64 + 1 * (x 1).val = (x 1).val; rw [e41]; omega

/-- Input window 5 is one block: at every point it is the whole array. -/
theorem blk5 (c : Dev nD) (t : Fin cfg0.N) :
    (iblk0 V c 5 t : Vec Ideal S1x64 .f32) = (V c main_v19 : S1x64.Idx → EReal) := by
  obtain ⟨e00, e01, e10, e11, e20, e21, e30, e31, e40, e41, e50, e51, eo0, eo1⟩ := idx_facts t
  funext x
  unfold iblk0
  rw [View.read_apply]
  show V c main_v19 _ = V c main_v19 _
  congr 1
  funext a
  apply Fin.ext
  match a with
  | ⟨0, _⟩ => show win0_5.index t 0 * 1 + 1 * (x 0).val = (x 0).val; rw [e50]; omega
  | ⟨1, _⟩ => show win0_5.index t 1 * 64 + 1 * (x 1).val = (x 1).val; rw [e51]; omega

/-- What point `t` writes back is block `t` of `whole`. -/
theorem flushed_eq (c : Dev nD) (t : Fin cfg0.N) :
    (dat0 V c).flushed 6 t = ((cfg0.win 6).blk t).view.read (Elt Ideal) (whole V c) := by
  show (cfg0.win 6).cut (grid0.coords t) ((dat0 V c).after 6 t) = _
  rw [after0_6]
  unfold out0_6
  rw [View.canon_unit_zero hz]
  simp only [View.ld_unit_zero (S := S5000x128) hz, View.ld_unit_zero (S := S5000x1) hz, View.ld_unit_zero (S := S128x64) hz, View.ld_unit_zero (S := S1x64) hz]
  obtain ⟨e00, e01, e10, e11, e20, e21, e30, e31, e40, e41, e50, e51, eo0, eo1⟩ := idx_facts t
  have ht := lt_N t
  refine funext fun (j : S5000x64.Idx) => ?_
  obtain ⟨p, q, rfl⟩ : ∃ (p : Fin 5000) (q : Fin 64), j = ix2 p q := ⟨j 0, j 1, eq_ix2 j⟩
  show k0_pay1 (iblk0 V c 0 t) (iblk0 V c 1 t) (iblk0 V c 2 t) (iblk0 V c 3 t) (iblk0 V c 4 t) (iblk0 V c 5 t) (ix2 p q) = whole V c (((cfg0.win 6).blk t).view.emb (ix2 p q))
  have hemb : (((cfg0.win 6).blk t).view.emb (ix2 p q) : S100000x64.Idx) = ix2 (⟨5000 * t.val + p.val, by omega⟩ : Fin 100000) q := by
    funext a
    apply Fin.ext
    match a with
    | ⟨0, _⟩ => show win0_6.index t 0 * 5000 + 1 * p.val = 5000 * t.val + p.val; rw [eo0]; omega
    | ⟨1, _⟩ => show win0_6.index t 1 * 64 + 1 * q.val = q.val; rw [eo1]; omega
  rw [hemb, Pay.pay0_apply, blk3 V c t, blk4 V c t, blk5 V c t]
  exact Sage.layerRelu_congr _ _ _ _ _ _ _ _ _ p (⟨5000 * t.val + p.val, by omega⟩ : Fin 100000) q
    (fun k => blk0 V c t (ix2 p k) (ix2 (⟨5000 * t.val + p.val, by omega⟩ : Fin 100000) k) rfl rfl)
    (blk1 V c t (ix2 p 0) (ix2 (⟨5000 * t.val + p.val, by omega⟩ : Fin 100000) 0) rfl rfl)
    (fun k => blk2 V c t (ix2 p k) (ix2 (⟨5000 * t.val + p.val, by omega⟩ : Fin 100000) k) rfl rfl)

/-- An index of the output array is in point `t`'s block iff each coordinate is in the block's range. -/
theorem mem_blk (t : Fin cfg0.N) (i : S100000x64.Idx) :
    i ∈ ((cfg0.win 6).blk t).view.set ↔ ∀ a : Fin 2, win0_6.index t a * S5000x64.size a ≤ (i a).val ∧ (i a).val < win0_6.index t a * S5000x64.size a + S5000x64.size a := by
  show i ∈ ((View.whole main_v20).slice (win0_6.rect t)).set ↔ _
  rw [View.set_slice_whole, Rect.mem_set_unit]
  exact Iff.rfl

/-- Every index of the output array is in the block of the point its row belongs to. -/
theorem cover (i : S100000x64.Idx) :
    ∃ t : Fin cfg0.N, (cfg0.win 6).flush t = true ∧ i ∈ ((cfg0.win 6).blk t).view.set := by
  have hi0 : (i 0).val < 100000 := (i 0).isLt
  have hi1 : (i 1).val < 64 := (i 1).isLt
  have hN : (i 0).val / 5000 < cfg0.N := by rw [show cfg0.N = 20 from N_0]; omega
  obtain ⟨t, ht⟩ : ∃ t : Fin cfg0.N, t.val = (i 0).val / 5000 := ⟨⟨_, hN⟩, rfl⟩
  obtain ⟨e00, e01, e10, e11, e20, e21, e30, e31, e40, e41, e50, e51, eo0, eo1⟩ := idx_facts t
  refine ⟨t, flush0_6 t, ?_⟩
  rw [mem_blk]
  intro a
  match a with
  | ⟨0, _⟩ => show win0_6.index t 0 * 5000 ≤ (i 0).val ∧ (i 0).val < win0_6.index t 0 * 5000 + 5000; rw [eo0, ht]; omega
  | ⟨1, _⟩ => show win0_6.index t 1 * 64 ≤ (i 1).val ∧ (i 1).val < win0_6.index t 1 * 64 + 64; rw [eo1]; omega

/-- The output array after the region is `whole` of the arrays the region found. -/
theorem array (c : Dev nD) : (dat0 V c).arrAt 6 cfg0.N = whole V c :=
  (dat0 V c).arrAt_eq_of_cover 6 (whole V c) (fun t _ => flushed_eq V c t) (cover)

end Cert.KernelIdeal.Region0

end
-- ==== Proof.Region1.lean ====
/-
  Region 1, from blocks to the array: the second layer: the mean-aggregation layer of the hidden features' neighbour sums, the degree column, the hidden features, the two weight matrices and the bias row.

  The grid has 20 points; point `t` reads rows `5000·t … 5000·t + 4999` of each row-blocked input, the whole of each
  resident input, and writes back the same rows of the output.  What it writes back is the specification's function of
  the WHOLE entry arrays restricted to those rows — an output row depends only on the same row of the row-blocked
  inputs —, and the 20 row blocks tile the output array, so the array ends as that one function of the entry arrays.
  Everything is stated at an arbitrary valuation `V` of the buffers at the region's entry.
-/
import proofs.«164268_j10651518894409_1_alg».proof.Proof.Gen.KernelIdeal.Frame
import proofs.«164268_j10651518894409_1_alg».proof.Proof.Payload
import Idealize.ShloMosaic.Lib.Pipeline.Value

set_option maxRecDepth 16384

noncomputable section

namespace Cert.KernelIdeal.Region1

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: a row-blocked window is at block row `t`, a resident one at block `(0, 0)`. -/
theorem idx_facts : ∀ t : Fin cfg1.N, win1_0.index t (0 : Fin 2) = t.val
    ∧ win1_0.index t (1 : Fin 2) = 0
    ∧ win1_1.index t (0 : Fin 2) = t.val
    ∧ win1_1.index t (1 : Fin 2) = 0
    ∧ win1_2.index t (0 : Fin 2) = t.val
    ∧ win1_2.index t (1 : Fin 2) = 0
    ∧ win1_3.index t (0 : Fin 2) = 0
    ∧ win1_3.index t (1 : Fin 2) = 0
    ∧ win1_4.index t (0 : Fin 2) = 0
    ∧ win1_4.index t (1 : Fin 2) = 0
    ∧ win1_5.index t (0 : Fin 2) = 0
    ∧ win1_5.index t (1 : Fin 2) = 0
    ∧ win1_6.index t (0 : Fin 2) = t.val
    ∧ win1_6.index t (1 : Fin 2) = 0 :=
  (by decide +kernel : ∀ t : Fin grid1.N, _)

theorem lt_N (t : Fin cfg1.N) : t.val < 20 := lt_of_lt_of_eq t.isLt (N_1 : cfg1.N = 20)

/-- The output array as one function of the arrays the region finds. -/
abbrev whole (c : Dev nD) : S100000x64.Idx → EReal :=
  Sage.layer (V c main_v30 : S100000x64.Idx → EReal) (V c main_v8 : S100000x1.Idx → EReal) (V c main_v20 : S100000x64.Idx → EReal) (V c main_arg6 : S64x64.Idx → EReal) (V c main_arg7 : S64x64.Idx → EReal) (V c main_v31 : S1x64.Idx → EReal)

/-- Input window 0's block at point `t` is rows `5000·t … 5000·t + 4999` of its array. -/
theorem blk0 (c : Dev nD) (t : Fin cfg1.N) (x : S5000x64.Idx) (k : S100000x64.Idx)
    (hk0 : (k 0).val = 5000 * t.val + (x 0).val) (hk1 : (k 1).val = (x 1).val) :
    (iblk1 V c 0 t : Vec Ideal S5000x64 .f32) x = (V c main_v30 : S100000x64.Idx → EReal) k := by
  obtain ⟨e00, e01, e10, e11, e20, e21, e30, e31, e40, e41, e50, e51, eo0, eo1⟩ := idx_facts t
  unfold iblk1
  rw [View.read_apply]
  show V c main_v30 _ = V c main_v30 _
  congr 1
  funext a
  apply Fin.ext
  match a with
  | ⟨0, _⟩ => show win1_0.index t 0 * 5000 + 1 * (x 0).val = (k 0).val; rw [e00, hk0]; omega
  | ⟨1, _⟩ => show win1_0.index t 1 * 64 + 1 * (x 1).val = (k 1).val; rw [e01, hk1]; omega

/-- Input window 1's block at point `t` is rows `5000·t … 5000·t + 4999` of its array. -/
theorem blk1 (c : Dev nD) (t : Fin cfg1.N) (x : S5000x1.Idx) (k : S100000x1.Idx)
    (hk0 : (k 0).val = 5000 * t.val + (x 0).val) (hk1 : (k 1).val = (x 1).val) :
    (iblk1 V c 1 t : Vec Ideal S5000x1 .f32) x = (V c main_v8 : S100000x1.Idx → EReal) k := by
  obtain ⟨e00, e01, e10, e11, e20, e21, e30, e31, e40, e41, e50, e51, eo0, eo1⟩ := idx_facts t
  unfold iblk1
  rw [View.read_apply]
  show V c main_v8 _ = V c main_v8 _
  congr 1
  funext a
  apply Fin.ext
  match a with
  | ⟨0, _⟩ => show win1_1.index t 0 * 5000 + 1 * (x 0).val = (k 0).val; rw [e10, hk0]; omega
  | ⟨1, _⟩ => show win1_1.index t 1 * 1 + 1 * (x 1).val = (k 1).val; rw [e11, hk1]; omega

/-- Input window 2's block at point `t` is rows `5000·t … 5000·t + 4999` of its array. -/
theorem blk2 (c : Dev nD) (t : Fin cfg1.N) (x : S5000x64.Idx) (k : S100000x64.Idx)
    (hk0 : (k 0).val = 5000 * t.val + (x 0).val) (hk1 : (k 1).val = (x 1).val) :
    (iblk1 V c 2 t : Vec Ideal S5000x64 .f32) x = (V c main_v20 : S100000x64.Idx → EReal) k := by
  obtain ⟨e00, e01, e10, e11, e20, e21, e30, e31, e40, e41, e50, e51, eo0, eo1⟩ := idx_facts t
  unfold iblk1
  rw [View.read_apply]
  show V c main_v20 _ = V c main_v20 _
  congr 1
  funext a
  apply Fin.ext
  match a with
  | ⟨0, _⟩ => show win1_2.index t 0 * 5000 + 1 * (x 0).val = (k 0).val; rw [e20, hk0]; omega
  | ⟨1, _⟩ => show win1_2.index t 1 * 64 + 1 * (x 1).val = (k 1).val; rw [e21, hk1]; omega

/-- Input window 3 is one block: at every point it is the whole array. -/
theorem blk3 (c : Dev nD) (t : Fin cfg1.N) :
    (iblk1 V c 3 t : Vec Ideal S64x64 .f32) = (V c main_arg6 : S64x64.Idx → EReal) := by
  obtain ⟨e00, e01, e10, e11, e20, e21, e30, e31, e40, e41, e50, e51, eo0, eo1⟩ := idx_facts t
  funext x
  unfold iblk1
  rw [View.read_apply]
  show V c main_arg6 _ = V c main_arg6 _
  congr 1
  funext a
  apply Fin.ext
  match a with
  | ⟨0, _⟩ => show win1_3.index t 0 * 64 + 1 * (x 0).val = (x 0).val; rw [e30]; omega
  | ⟨1, _⟩ => show win1_3.index t 1 * 64 + 1 * (x 1).val = (x 1).val; rw [e31]; omega

/-- Input window 4 is one block: at every point it is the whole array. -/
theorem blk4 (c : Dev nD) (t : Fin cfg1.N) :
    (iblk1 V c 4 t : Vec Ideal S64x64 .f32) = (V c main_arg7 : S64x64.Idx → EReal) := by
  obtain ⟨e00, e01, e10, e11, e20, e21, e30, e31, e40, e41, e50, e51, eo0, eo1⟩ := idx_facts t
  funext x
  unfold iblk1
  rw [View.read_apply]
  show V c main_arg7 _ = V c main_arg7 _
  congr 1
  funext a
  apply Fin.ext
  match a with
  | ⟨0, _⟩ => show win1_4.index t 0 * 64 + 1 * (x 0).val = (x 0).val; rw [e40]; omega
  | ⟨1, _⟩ => show win1_4.index t 1 * 64 + 1 * (x 1).val = (x 1).val; rw [e41]; omega

/-- Input window 5 is one block: at every point it is the whole array. -/
theorem blk5 (c : Dev nD) (t : Fin cfg1.N) :
    (iblk1 V c 5 t : Vec Ideal S1x64 .f32) = (V c main_v31 : S1x64.Idx → EReal) := by
  obtain ⟨e00, e01, e10, e11, e20, e21, e30, e31, e40, e41, e50, e51, eo0, eo1⟩ := idx_facts t
  funext x
  unfold iblk1
  rw [View.read_apply]
  show V c main_v31 _ = V c main_v31 _
  congr 1
  funext a
  apply Fin.ext
  match a with
  | ⟨0, _⟩ => show win1_5.index t 0 * 1 + 1 * (x 0).val = (x 0).val; rw [e50]; omega
  | ⟨1, _⟩ => show win1_5.index t 1 * 64 + 1 * (x 1).val = (x 1).val; rw [e51]; omega

/-- What point `t` writes back is block `t` of `whole`. -/
theorem flushed_eq (c : Dev nD) (t : Fin cfg1.N) :
    (dat1 V c).flushed 6 t = ((cfg1.win 6).blk t).view.read (Elt Ideal) (whole V c) := by
  show (cfg1.win 6).cut (grid1.coords t) ((dat1 V c).after 6 t) = _
  rw [after1_6]
  unfold out1_6
  rw [View.canon_unit_zero hz]
  simp only [View.ld_unit_zero (S := S5000x64) hz, View.ld_unit_zero (S := S5000x1) hz, View.ld_unit_zero (S := S64x64) hz, View.ld_unit_zero (S := S1x64) hz]
  obtain ⟨e00, e01, e10, e11, e20, e21, e30, e31, e40, e41, e50, e51, eo0, eo1⟩ := idx_facts t
  have ht := lt_N t
  refine funext fun (j : S5000x64.Idx) => ?_
  obtain ⟨p, q, rfl⟩ : ∃ (p : Fin 5000) (q : Fin 64), j = ix2 p q := ⟨j 0, j 1, eq_ix2 j⟩
  show k1_pay1 (iblk1 V c 0 t) (iblk1 V c 1 t) (iblk1 V c 2 t) (iblk1 V c 3 t) (iblk1 V c 4 t) (iblk1 V c 5 t) (ix2 p q) = whole V c (((cfg1.win 6).blk t).view.emb (ix2 p q))
  have hemb : (((cfg1.win 6).blk t).view.emb (ix2 p q) : S100000x64.Idx) = ix2 (⟨5000 * t.val + p.val, by omega⟩ : Fin 100000) q := by
    funext a
    apply Fin.ext
    match a with
    | ⟨0, _⟩ => show win1_6.index t 0 * 5000 + 1 * p.val = 5000 * t.val + p.val; rw [eo0]; omega
    | ⟨1, _⟩ => show win1_6.index t 1 * 64 + 1 * q.val = q.val; rw [eo1]; omega
  rw [hemb, Pay.pay1_apply, blk3 V c t, blk4 V c t, blk5 V c t]
  exact Sage.layer_congr _ _ _ _ _ _ _ _ _ p (⟨5000 * t.val + p.val, by omega⟩ : Fin 100000) q
    (fun k => blk0 V c t (ix2 p k) (ix2 (⟨5000 * t.val + p.val, by omega⟩ : Fin 100000) k) rfl rfl)
    (blk1 V c t (ix2 p 0) (ix2 (⟨5000 * t.val + p.val, by omega⟩ : Fin 100000) 0) rfl rfl)
    (fun k => blk2 V c t (ix2 p k) (ix2 (⟨5000 * t.val + p.val, by omega⟩ : Fin 100000) k) rfl rfl)

/-- An index of the output array is in point `t`'s block iff each coordinate is in the block's range. -/
theorem mem_blk (t : Fin cfg1.N) (i : S100000x64.Idx) :
    i ∈ ((cfg1.win 6).blk t).view.set ↔ ∀ a : Fin 2, win1_6.index t a * S5000x64.size a ≤ (i a).val ∧ (i a).val < win1_6.index t a * S5000x64.size a + S5000x64.size a := by
  show i ∈ ((View.whole main_v32).slice (win1_6.rect t)).set ↔ _
  rw [View.set_slice_whole, Rect.mem_set_unit]
  exact Iff.rfl

/-- Every index of the output array is in the block of the point its row belongs to. -/
theorem cover (i : S100000x64.Idx) :
    ∃ t : Fin cfg1.N, (cfg1.win 6).flush t = true ∧ i ∈ ((cfg1.win 6).blk t).view.set := by
  have hi0 : (i 0).val < 100000 := (i 0).isLt
  have hi1 : (i 1).val < 64 := (i 1).isLt
  have hN : (i 0).val / 5000 < cfg1.N := by rw [show cfg1.N = 20 from N_1]; omega
  obtain ⟨t, ht⟩ : ∃ t : Fin cfg1.N, t.val = (i 0).val / 5000 := ⟨⟨_, hN⟩, rfl⟩
  obtain ⟨e00, e01, e10, e11, e20, e21, e30, e31, e40, e41, e50, e51, eo0, eo1⟩ := idx_facts t
  refine ⟨t, flush1_6 t, ?_⟩
  rw [mem_blk]
  intro a
  match a with
  | ⟨0, _⟩ => show win1_6.index t 0 * 5000 ≤ (i 0).val ∧ (i 0).val < win1_6.index t 0 * 5000 + 5000; rw [eo0, ht]; omega
  | ⟨1, _⟩ => show win1_6.index t 1 * 64 ≤ (i 1).val ∧ (i 1).val < win1_6.index t 1 * 64 + 64; rw [eo1]; omega

/-- The output array after the region is `whole` of the arrays the region found. -/
theorem array (c : Dev nD) : (dat1 V c).arrAt 6 cfg1.N = whole V c :=
  (dat1 V c).arrAt_eq_of_cover 6 (whole V c) (fun t _ => flushed_eq V c t) (cover)

end Cert.KernelIdeal.Region1

end
-- ==== Proof.Region2.lean ====
/-
  Region 2, from blocks to the array: the decoder: the score of the two gathered embeddings, the two halves of the first weight matrix, its bias row, the second weight column and its bias.

  The grid has 20 points; point `t` reads rows `10000·t … 10000·t + 9999` of each row-blocked input, the whole of each
  resident input, and writes back the same rows of the output.  What it writes back is the specification's function of
  the WHOLE entry arrays restricted to those rows — an output row depends only on the same row of the row-blocked
  inputs —, and the 20 row blocks tile the output array, so the array ends as that one function of the entry arrays.
  Everything is stated at an arbitrary valuation `V` of the buffers at the region's entry.
-/
import proofs.«164268_j10651518894409_1_alg».proof.Proof.Gen.KernelIdeal.Frame
import proofs.«164268_j10651518894409_1_alg».proof.Proof.Payload
import Idealize.ShloMosaic.Lib.Pipeline.Value

set_option maxRecDepth 16384

noncomputable section

namespace Cert.KernelIdeal.Region2

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: a row-blocked window is at block row `t`, a resident one at block `(0, 0)`. -/
theorem idx_facts : ∀ t : Fin cfg2.N, win2_0.index t (0 : Fin 2) = t.val
    ∧ win2_0.index t (1 : Fin 2) = 0
    ∧ win2_1.index t (0 : Fin 2) = t.val
    ∧ win2_1.index t (1 : Fin 2) = 0
    ∧ win2_2.index t (0 : Fin 2) = 0
    ∧ win2_2.index t (1 : Fin 2) = 0
    ∧ win2_3.index t (0 : Fin 2) = 0
    ∧ win2_3.index t (1 : Fin 2) = 0
    ∧ win2_4.index t (0 : Fin 2) = 0
    ∧ win2_4.index t (1 : Fin 2) = 0
    ∧ win2_5.index t (0 : Fin 2) = 0
    ∧ win2_5.index t (1 : Fin 2) = 0
    ∧ win2_6.index t (0 : Fin 2) = 0
    ∧ win2_6.index t (1 : Fin 2) = 0
    ∧ win2_7.index t (0 : Fin 2) = t.val
    ∧ win2_7.index t (1 : Fin 2) = 0 :=
  (by decide +kernel : ∀ t : Fin grid2.N, _)

theorem lt_N (t : Fin cfg2.N) : t.val < 20 := lt_of_lt_of_eq t.isLt (N_2 : cfg2.N = 20)

/-- The output array as one function of the arrays the region finds. -/
abbrev whole (c : Dev nD) : S200000x1.Idx → EReal :=
  Sage.score (V c main_v43 : S200000x64.Idx → EReal) (V c main_v50 : S200000x64.Idx → EReal) (V c main_v51 : S64x64.Idx → EReal) (V c main_v52 : S64x64.Idx → EReal) (V c main_v53 : S1x64.Idx → EReal) (V c main_arg11 : S64x1.Idx → EReal) (V c main_v54 : S1x1.Idx → EReal)

/-- Input window 0's block at point `t` is rows `10000·t … 10000·t + 9999` of its array. -/
theorem blk0 (c : Dev nD) (t : Fin cfg2.N) (x : S10000x64.Idx) (k : S200000x64.Idx)
    (hk0 : (k 0).val = 10000 * t.val + (x 0).val) (hk1 : (k 1).val = (x 1).val) :
    (iblk2 V c 0 t : Vec Ideal S10000x64 .f32) x = (V c main_v43 : S200000x64.Idx → EReal) k := by
  obtain ⟨e00, e01, e10, e11, e20, e21, e30, e31, e40, e41, e50, e51, e60, e61, eo0, eo1⟩ := idx_facts t
  unfold iblk2
  rw [View.read_apply]
  show V c main_v43 _ = V c main_v43 _
  congr 1
  funext a
  apply Fin.ext
  match a with
  | ⟨0, _⟩ => show win2_0.index t 0 * 10000 + 1 * (x 0).val = (k 0).val; rw [e00, hk0]; omega
  | ⟨1, _⟩ => show win2_0.index t 1 * 64 + 1 * (x 1).val = (k 1).val; rw [e01, hk1]; omega

/-- Input window 1's block at point `t` is rows `10000·t … 10000·t + 9999` of its array. -/
theorem blk1 (c : Dev nD) (t : Fin cfg2.N) (x : S10000x64.Idx) (k : S200000x64.Idx)
    (hk0 : (k 0).val = 10000 * t.val + (x 0).val) (hk1 : (k 1).val = (x 1).val) :
    (iblk2 V c 1 t : Vec Ideal S10000x64 .f32) x = (V c main_v50 : S200000x64.Idx → EReal) k := by
  obtain ⟨e00, e01, e10, e11, e20, e21, e30, e31, e40, e41, e50, e51, e60, e61, eo0, eo1⟩ := idx_facts t
  unfold iblk2
  rw [View.read_apply]
  show V c main_v50 _ = V c main_v50 _
  congr 1
  funext a
  apply Fin.ext
  match a with
  | ⟨0, _⟩ => show win2_1.index t 0 * 10000 + 1 * (x 0).val = (k 0).val; rw [e10, hk0]; omega
  | ⟨1, _⟩ => show win2_1.index t 1 * 64 + 1 * (x 1).val = (k 1).val; rw [e11, hk1]; omega

/-- Input window 2 is one block: at every point it is the whole array. -/
theorem blk2 (c : Dev nD) (t : Fin cfg2.N) :
    (iblk2 V c 2 t : Vec Ideal S64x64 .f32) = (V c main_v51 : S64x64.Idx → EReal) := by
  obtain ⟨e00, e01, e10, e11, e20, e21, e30, e31, e40, e41, e50, e51, e60, e61, eo0, eo1⟩ := idx_facts t
  funext x
  unfold iblk2
  rw [View.read_apply]
  show V c main_v51 _ = V c main_v51 _
  congr 1
  funext a
  apply Fin.ext
  match a with
  | ⟨0, _⟩ => show win2_2.index t 0 * 64 + 1 * (x 0).val = (x 0).val; rw [e20]; omega
  | ⟨1, _⟩ => show win2_2.index t 1 * 64 + 1 * (x 1).val = (x 1).val; rw [e21]; omega

/-- Input window 3 is one block: at every point it is the whole array. -/
theorem blk3 (c : Dev nD) (t : Fin cfg2.N) :
    (iblk2 V c 3 t : Vec Ideal S64x64 .f32) = (V c main_v52 : S64x64.Idx → EReal) := by
  obtain ⟨e00, e01, e10, e11, e20, e21, e30, e31, e40, e41, e50, e51, e60, e61, eo0, eo1⟩ := idx_facts t
  funext x
  unfold iblk2
  rw [View.read_apply]
  show V c main_v52 _ = V c main_v52 _
  congr 1
  funext a
  apply Fin.ext
  match a with
  | ⟨0, _⟩ => show win2_3.index t 0 * 64 + 1 * (x 0).val = (x 0).val; rw [e30]; omega
  | ⟨1, _⟩ => show win2_3.index t 1 * 64 + 1 * (x 1).val = (x 1).val; rw [e31]; omega

/-- Input window 4 is one block: at every point it is the whole array. -/
theorem blk4 (c : Dev nD) (t : Fin cfg2.N) :
    (iblk2 V c 4 t : Vec Ideal S1x64 .f32) = (V c main_v53 : S1x64.Idx → EReal) := by
  obtain ⟨e00, e01, e10, e11, e20, e21, e30, e31, e40, e41, e50, e51, e60, e61, eo0, eo1⟩ := idx_facts t
  funext x
  unfold iblk2
  rw [View.read_apply]
  show V c main_v53 _ = V c main_v53 _
  congr 1
  funext a
  apply Fin.ext
  match a with
  | ⟨0, _⟩ => show win2_4.index t 0 * 1 + 1 * (x 0).val = (x 0).val; rw [e40]; omega
  | ⟨1, _⟩ => show win2_4.index t 1 * 64 + 1 * (x 1).val = (x 1).val; rw [e41]; omega

/-- Input window 5 is one block: at every point it is the whole array. -/
theorem blk5 (c : Dev nD) (t : Fin cfg2.N) :
    (iblk2 V c 5 t : Vec Ideal S64x1 .f32) = (V c main_arg11 : S64x1.Idx → EReal) := by
  obtain ⟨e00, e01, e10, e11, e20, e21, e30, e31, e40, e41, e50, e51, e60, e61, eo0, eo1⟩ := idx_facts t
  funext x
  unfold iblk2
  rw [View.read_apply]
  show V c main_arg11 _ = V c main_arg11 _
  congr 1
  funext a
  apply Fin.ext
  match a with
  | ⟨0, _⟩ => show win2_5.index t 0 * 64 + 1 * (x 0).val = (x 0).val; rw [e50]; omega
  | ⟨1, _⟩ => show win2_5.index t 1 * 1 + 1 * (x 1).val = (x 1).val; rw [e51]; omega

/-- Input window 6 is one block: at every point it is the whole array. -/
theorem blk6 (c : Dev nD) (t : Fin cfg2.N) :
    (iblk2 V c 6 t : Vec Ideal S1x1 .f32) = (V c main_v54 : S1x1.Idx → EReal) := by
  obtain ⟨e00, e01, e10, e11, e20, e21, e30, e31, e40, e41, e50, e51, e60, e61, eo0, eo1⟩ := idx_facts t
  funext x
  unfold iblk2
  rw [View.read_apply]
  show V c main_v54 _ = V c main_v54 _
  congr 1
  funext a
  apply Fin.ext
  match a with
  | ⟨0, _⟩ => show win2_6.index t 0 * 1 + 1 * (x 0).val = (x 0).val; rw [e60]; omega
  | ⟨1, _⟩ => show win2_6.index t 1 * 1 + 1 * (x 1).val = (x 1).val; rw [e61]; omega

/-- What point `t` writes back is block `t` of `whole`. -/
theorem flushed_eq (c : Dev nD) (t : Fin cfg2.N) :
    (dat2 V c).flushed 7 t = ((cfg2.win 7).blk t).view.read (Elt Ideal) (whole V c) := by
  show (cfg2.win 7).cut (grid2.coords t) ((dat2 V c).after 7 t) = _
  rw [after2_7]
  unfold out2_7
  rw [View.canon_unit_zero hz]
  simp only [View.ld_unit_zero (S := S10000x64) hz, View.ld_unit_zero (S := S64x64) hz, View.ld_unit_zero (S := S1x64) hz, View.ld_unit_zero (S := S64x1) hz, View.ld_unit_zero (S := S1x1) hz]
  obtain ⟨e00, e01, e10, e11, e20, e21, e30, e31, e40, e41, e50, e51, e60, e61, eo0, eo1⟩ := idx_facts t
  have ht := lt_N t
  refine funext fun (j : S10000x1.Idx) => ?_
  obtain ⟨p, q, rfl⟩ : ∃ (p : Fin 10000) (q : Fin 1), j = ix2 p q := ⟨j 0, j 1, eq_ix2 j⟩
  show k2_pay1 (iblk2 V c 0 t) (iblk2 V c 1 t) (iblk2 V c 2 t) (iblk2 V c 3 t) (iblk2 V c 4 t) (iblk2 V c 5 t) (iblk2 V c 6 t) (ix2 p q) = whole V c (((cfg2.win 7).blk t).view.emb (ix2 p q))
  have hemb : (((cfg2.win 7).blk t).view.emb (ix2 p q) : S200000x1.Idx) = ix2 (⟨10000 * t.val + p.val, by omega⟩ : Fin 200000) q := by
    funext a
    apply Fin.ext
    match a with
    | ⟨0, _⟩ => show win2_7.index t 0 * 10000 + 1 * p.val = 10000 * t.val + p.val; rw [eo0]; omega
    | ⟨1, _⟩ => show win2_7.index t 1 * 1 + 1 * q.val = q.val; rw [eo1]; omega
  rw [hemb, Pay.pay2_apply, blk2 V c t, blk3 V c t, blk4 V c t, blk5 V c t, blk6 V c t]
  exact Sage.score_congr _ _ _ _ _ _ _ _ _ p (⟨10000 * t.val + p.val, by omega⟩ : Fin 200000) q
    (fun k => blk0 V c t (ix2 p k) (ix2 (⟨10000 * t.val + p.val, by omega⟩ : Fin 200000) k) rfl rfl)
    (fun k => blk1 V c t (ix2 p k) (ix2 (⟨10000 * t.val + p.val, by omega⟩ : Fin 200000) k) rfl rfl)

/-- An index of the output array is in point `t`'s block iff each coordinate is in the block's range. -/
theorem mem_blk (t : Fin cfg2.N) (i : S200000x1.Idx) :
    i ∈ ((cfg2.win 7).blk t).view.set ↔ ∀ a : Fin 2, win2_7.index t a * S10000x1.size a ≤ (i a).val ∧ (i a).val < win2_7.index t a * S10000x1.size a + S10000x1.size a := by
  show i ∈ ((View.whole main_v55).slice (win2_7.rect t)).set ↔ _
  rw [View.set_slice_whole, Rect.mem_set_unit]
  exact Iff.rfl

/-- Every index of the output array is in the block of the point its row belongs to. -/
theorem cover (i : S200000x1.Idx) :
    ∃ t : Fin cfg2.N, (cfg2.win 7).flush t = true ∧ i ∈ ((cfg2.win 7).blk t).view.set := by
  have hi0 : (i 0).val < 200000 := (i 0).isLt
  have hi1 : (i 1).val < 1 := (i 1).isLt
  have hN : (i 0).val / 10000 < cfg2.N := by rw [show cfg2.N = 20 from N_2]; omega
  obtain ⟨t, ht⟩ : ∃ t : Fin cfg2.N, t.val = (i 0).val / 10000 := ⟨⟨_, hN⟩, rfl⟩
  obtain ⟨e00, e01, e10, e11, e20, e21, e30, e31, e40, e41, e50, e51, e60, e61, eo0, eo1⟩ := idx_facts t
  refine ⟨t, flush2_7 t, ?_⟩
  rw [mem_blk]
  intro a
  match a with
  | ⟨0, _⟩ => show win2_7.index t 0 * 10000 ≤ (i 0).val ∧ (i 0).val < win2_7.index t 0 * 10000 + 10000; rw [eo0, ht]; omega
  | ⟨1, _⟩ => show win2_7.index t 1 * 1 ≤ (i 1).val ∧ (i 1).val < win2_7.index t 1 * 1 + 1; rw [eo1]; omega

/-- The output array after the region is `whole` of the arrays the region found. -/
theorem array (c : Dev nD) : (dat2 V c).arrAt 7 cfg2.N = whole V c :=
  (dat2 V c).arrAt_eq_of_cover 7 (whole V c) (fun t _ => flushed_eq V c t) (cover)

end Cert.KernelIdeal.Region2

end
-- ==== Proof.Fold.lean ====
/-
  The chain of boundary contents, read as values.

  Names for what the kernel's @main computes, as functions of the launch memory `m`: the edge list's source and
  destination rows, index columns with negative indices counted from the end, the in-degree column (ones scattered
  onto the destination nodes), neighbour sums (rows gathered at the sources, scattered onto the destinations), the
  hidden features (the first layer, clamped), the embeddings (the second layer), and the scores of the labelled pairs.
  Then, boundary by boundary, what each buffer that a later segment reads holds there: a host stretch's results are
  its operations' values of the contents before it; a region's output array is the specification's function of the
  arrays it found; everything else is carried through unchanged.  At the last boundary the result buffer holds
  `result`.
-/
import proofs.«164268_j10651518894409_1_alg».proof.Proof.Gen.KernelIdeal.Frame
import proofs.«164268_j10651518894409_1_alg».proof.Proof.Region0
import proofs.«164268_j10651518894409_1_alg».proof.Proof.Region1
import proofs.«164268_j10651518894409_1_alg».proof.Proof.Region2
import Idealize.ShloMosaic.Lib.StableHlo.Run

set_option maxRecDepth 16384

noncomputable section

namespace Cert.KernelIdeal.Fold

open Cert.KernelIdeal Cert.KernelIdeal.Gen
open Idealize.ShloMosaic Idealize.ShloMosaic.TcCoe Idealize.SL.Sem Idealize.ShloMosaic.StableHlo
open Idealize.ShloMosaic.Pipeline (Dat)

variable (m : (ℓ : Loc nD τ sig) → Buf (Elt Ideal) ℓ) (ρ : Dev nD → PrngReg) (c : Dev nD)

/-! ## The values -/

/-- The edge list's source row. -/
def src : IVec S1000000 32 :=
  shapeCast S1000000 (extractStridedSlice S1x1000000 ![0, 0] (m ((c : Thread nD τ).loc main_arg1)) slices_S2x1000000_S1x1000000_0_0) shapeCasts_S1x1000000_S1000000
/-- The edge list's destination row. -/
def dst : IVec S1000000 32 :=
  shapeCast S1000000 (extractStridedSlice S1x1000000 ![1, 0] (m ((c : Thread nD τ).loc main_arg1)) slices_S2x1000000_S1x1000000_1_0) shapeCasts_S1x1000000_S1000000
/-- A vector of edge endpoints as an index column, a negative index counted from the end of the node axis. -/
def wrapE (v : IVec S1000000 32) : IVec S1000000x1 32 :=
  broadcastInDim S1000000x1 ![0] bcast_S1000000_S1000000x1_0 (select (cmpi .slt v (broadcastInDim S1000000 ![] bcast_S_S1000000 (constantI S_ 32 0#32))) (addi v (broadcastInDim S1000000 ![] bcast_S_S1000000 (constantI S_ 32 100000#32))) v)
/-- A vector of edge endpoints as an index column, as it is. -/
def colE (v : IVec S1000000 32) : IVec S1000000x1 32 :=
  broadcastInDim S1000000x1 ![0] bcast_S1000000_S1000000x1_0 v
/-- The in-degree of every node, as a column: a one per edge, added at the edge's destination. -/
def degcol : FVec Ideal S100000x1 .f32 :=
  broadcastInDim S100000x1 ![0] bcast_S100000_S100000x1_0 (Host.scatterAdd (F := Ideal) scatter_S100000_S1000000x1_S1000000_n_0_0_1 (broadcastInDim S100000 ![] bcast_S_S100000 (constant (F := Ideal) S_ .f32 0x00000000#32)) (colE (dst m c)) (broadcastInDim S1000000 ![] bcast_S_S1000000 (constant (F := Ideal) S_ .f32 0x3F800000#32)))
/-- Neighbour sums of 128-wide rows: each edge's source row, added at the edge's destination. -/
def sums128 (h : FVec Ideal S100000x128 .f32) : FVec Ideal S100000x128 .f32 :=
  Host.scatterAdd (F := Ideal) scatter_S100000x128_S1000000x1_S1000000x128_1_0_0_1 (broadcastInDim S100000x128 ![] bcast_S_S100000x128 (constant (F := Ideal) S_ .f32 0x00000000#32)) (colE (dst m c)) (Host.gather gather_S100000x128_S1000000x1_S1000000x128_1_0_n_n_0_1_1128 h (wrapE (src m c)))
/-- Neighbour sums of 64-wide rows. -/
def sums64 (h : FVec Ideal S100000x64 .f32) : FVec Ideal S100000x64 .f32 :=
  Host.scatterAdd (F := Ideal) scatter_S100000x64_S1000000x1_S1000000x64_1_0_0_1 (broadcastInDim S100000x64 ![] bcast_S_S100000x64 (constant (F := Ideal) S_ .f32 0x00000000#32)) (colE (dst m c)) (Host.gather gather_S100000x64_S1000000x1_S1000000x64_1_0_n_n_0_1_164 h (wrapE (src m c)))
/-- The hidden features: the first layer, clamped below at zero. -/
def hid : FVec Ideal S100000x64 .f32 :=
  Sage.layerRelu (sums128 m c (m ((c : Thread nD τ).loc main_arg0)) : S100000x128.Idx → EReal) (degcol m c : S100000x1.Idx → EReal) ((m ((c : Thread nD τ).loc main_arg0)) : S100000x128.Idx → EReal) ((m ((c : Thread nD τ).loc main_arg3)) : S128x64.Idx → EReal) ((m ((c : Thread nD τ).loc main_arg4)) : S128x64.Idx → EReal) (shapeCast S1x64 (m ((c : Thread nD τ).loc main_arg5)) shapeCasts_S64_S1x64 : S1x64.Idx → EReal)
/-- The embeddings: the second layer. -/
def emb : FVec Ideal S100000x64 .f32 :=
  Sage.layer (sums64 m c (hid m c) : S100000x64.Idx → EReal) (degcol m c : S100000x1.Idx → EReal) (hid m c : S100000x64.Idx → EReal) ((m ((c : Thread nD τ).loc main_arg6)) : S64x64.Idx → EReal) ((m ((c : Thread nD τ).loc main_arg7)) : S64x64.Idx → EReal) (shapeCast S1x64 (m ((c : Thread nD τ).loc main_arg8)) shapeCasts_S64_S1x64 : S1x64.Idx → EReal)
/-- The labelled pairs' first and second rows. -/
def lsrc : IVec S200000 32 :=
  shapeCast S200000 (extractStridedSlice S1x200000 ![0, 0] (m ((c : Thread nD τ).loc main_arg2)) slices_S2x200000_S1x200000_0_0) shapeCasts_S1x200000_S200000
def ldst : IVec S200000 32 :=
  shapeCast S200000 (extractStridedSlice S1x200000 ![1, 0] (m ((c : Thread nD τ).loc main_arg2)) slices_S2x200000_S1x200000_1_0) shapeCasts_S1x200000_S200000
/-- A vector of pair endpoints as an index column, a negative index counted from the end of the node axis. -/
def wrapP (v : IVec S200000 32) : IVec S200000x1 32 :=
  broadcastInDim S200000x1 ![0] bcast_S200000_S200000x1_0 (select (cmpi .slt v (broadcastInDim S200000 ![] bcast_S_S200000 (constantI S_ 32 0#32))) (addi v (broadcastInDim S200000 ![] bcast_S_S200000 (constantI S_ 32 100000#32))) v)
/-- The embeddings of the pairs' first rows and of their second rows. -/
def emb0 : FVec Ideal S200000x64 .f32 := Host.gather gather_S100000x64_S200000x1_S200000x64_1_0_n_n_0_1_164 (emb m c) (wrapP (lsrc m c))
def emb1 : FVec Ideal S200000x64 .f32 := Host.gather gather_S100000x64_S200000x1_S200000x64_1_0_n_n_0_1_164 (emb m c) (wrapP (ldst m c))
/-- The pairs' scores as a column, and as the result vector. -/
def scores : FVec Ideal S200000x1 .f32 :=
  Sage.score (emb0 m c : S200000x64.Idx → EReal) (emb1 m c : S200000x64.Idx → EReal)
    (extractStridedSlice S64x64 ![0, 0] (m ((c : Thread nD τ).loc main_arg9)) slices_S128x64_S64x64_0_0 : S64x64.Idx → EReal)
    (extractStridedSlice S64x64 ![64, 0] (m ((c : Thread nD τ).loc main_arg9)) slices_S128x64_S64x64_64_0 : S64x64.Idx → EReal)
    (shapeCast S1x64 (m ((c : Thread nD τ).loc main_arg10)) shapeCasts_S64_S1x64 : S1x64.Idx → EReal) ((m ((c : Thread nD τ).loc main_arg11)) : S64x1.Idx → EReal)
    (shapeCast S1x1 (m ((c : Thread nD τ).loc main_arg12)) shapeCasts_S1_S1x1 : S1x1.Idx → EReal)
def result : FVec Ideal S200000 .f32 := shapeCast S200000 (scores m c) shapeCasts_S200000x1_S200000

/-! ## After the first stretch of host operations (the first layer's entry) -/

theorem V1_v18 : V1 m ρ c main_v18 = sums128 m c (m ((c : Thread nD τ).loc main_arg0)) := by
  show StableHlo.after hostOps0 (W0 m ρ c) (Proc.devRef .tc main_v18) = _
  dsimp only [hostOps0]
  after_results_simp <;> rfl
theorem V1_v8 : V1 m ρ c main_v8 = degcol m c := by
  show StableHlo.after hostOps0 (W0 m ρ c) (Proc.devRef .tc main_v8) = _
  dsimp only [hostOps0]
  after_results_simp <;> rfl
theorem V1_v19 : V1 m ρ c main_v19 = shapeCast S1x64 (m ((c : Thread nD τ).loc main_arg5)) shapeCasts_S64_S1x64 := by
  show StableHlo.after hostOps0 (W0 m ρ c) (Proc.devRef .tc main_v19) = _
  dsimp only [hostOps0]
  after_results_simp <;> rfl
theorem V1_arg0 : V1 m ρ c main_arg0 = m ((c : Thread nD τ).loc main_arg0) := by
  show StableHlo.after hostOps0 (W0 m ρ c) (Proc.devRef .tc main_arg0) = _
  dsimp only [hostOps0]
  after_results_simp <;> rfl
theorem V1_arg3 : V1 m ρ c main_arg3 = m ((c : Thread nD τ).loc main_arg3) := by
  show StableHlo.after hostOps0 (W0 m ρ c) (Proc.devRef .tc main_arg3) = _
  dsimp only [hostOps0]
  after_results_simp <;> rfl
theorem V1_arg4 : V1 m ρ c main_arg4 = m ((c : Thread nD τ).loc main_arg4) := by
  show StableHlo.after hostOps0 (W0 m ρ c) (Proc.devRef .tc main_arg4) = _
  dsimp only [hostOps0]
  after_results_simp <;> rfl
theorem W1_v1 : W1 m ρ c (Proc.devRef .tc main_v1) = src m c := by
  show StableHlo.after hostOps0 (W0 m ρ c) (Proc.devRef .tc main_v1) = _
  dsimp only [hostOps0]
  after_results_simp <;> rfl
theorem W1_v3 : W1 m ρ c (Proc.devRef .tc main_v3) = dst m c := by
  show StableHlo.after hostOps0 (W0 m ρ c) (Proc.devRef .tc main_v3) = _
  dsimp only [hostOps0]
  after_results_simp <;> rfl
theorem W1_arg2 : W1 m ρ c (Proc.devRef .tc main_arg2) = m ((c : Thread nD τ).loc main_arg2) := by
  show StableHlo.after hostOps0 (W0 m ρ c) (Proc.devRef .tc main_arg2) = _
  dsimp only [hostOps0]
  after_results_simp <;> rfl
theorem W1_arg6 : W1 m ρ c (Proc.devRef .tc main_arg6) = m ((c : Thread nD τ).loc main_arg6) := by
  show StableHlo.after hostOps0 (W0 m ρ c) (Proc.devRef .tc main_arg6) = _
  dsimp only [hostOps0]
  after_results_simp <;> rfl
theorem W1_arg7 : W1 m ρ c (Proc.devRef .tc main_arg7) = m ((c : Thread nD τ).loc main_arg7) := by
  show StableHlo.after hostOps0 (W0 m ρ c) (Proc.devRef .tc main_arg7) = _
  dsimp only [hostOps0]
  after_results_simp <;> rfl
theorem W1_arg8 : W1 m ρ c (Proc.devRef .tc main_arg8) = m ((c : Thread nD τ).loc main_arg8) := by
  show StableHlo.after hostOps0 (W0 m ρ c) (Proc.devRef .tc main_arg8) = _
  dsimp only [hostOps0]
  after_results_simp <;> rfl
theorem W1_arg9 : W1 m ρ c (Proc.devRef .tc main_arg9) = m ((c : Thread nD τ).loc main_arg9) := by
  show StableHlo.after hostOps0 (W0 m ρ c) (Proc.devRef .tc main_arg9) = _
  dsimp only [hostOps0]
  after_results_simp <;> rfl
theorem W1_arg10 : W1 m ρ c (Proc.devRef .tc main_arg10) = m ((c : Thread nD τ).loc main_arg10) := by
  show StableHlo.after hostOps0 (W0 m ρ c) (Proc.devRef .tc main_arg10) = _
  dsimp only [hostOps0]
  after_results_simp <;> rfl
theorem W1_arg11 : W1 m ρ c (Proc.devRef .tc main_arg11) = m ((c : Thread nD τ).loc main_arg11) := by
  show StableHlo.after hostOps0 (W0 m ρ c) (Proc.devRef .tc main_arg11) = _
  dsimp only [hostOps0]
  after_results_simp <;> rfl
theorem W1_arg12 : W1 m ρ c (Proc.devRef .tc main_arg12) = m ((c : Thread nD τ).loc main_arg12) := by
  show StableHlo.after hostOps0 (W0 m ρ c) (Proc.devRef .tc main_arg12) = _
  dsimp only [hostOps0]
  after_results_simp <;> rfl

/-! ## After the first layer's region -/

/-- The first layer's output array holds the hidden features. -/
theorem W2_v20 : W2 m ρ c (Proc.devRef .tc main_v20) = hid m c := by
  refine (W2_arr m ρ c 6).trans ((Region0.array (V1 m ρ) c).trans ?_)
  show Sage.layerRelu (V1 m ρ c main_v18) (V1 m ρ c main_v8) (V1 m ρ c main_arg0) (V1 m ρ c main_arg3) (V1 m ρ c main_arg4) (V1 m ρ c main_v19) = _
  rw [V1_v18, V1_v8, V1_arg0, V1_arg3, V1_arg4, V1_v19]
  rfl
theorem W2_v1 : W2 m ρ c (Proc.devRef .tc main_v1) = src m c := (W2_of_ne m ρ c main_v1 (by decide)).trans (W1_v1 m ρ c)
theorem W2_v3 : W2 m ρ c (Proc.devRef .tc main_v3) = dst m c := (W2_of_ne m ρ c main_v3 (by decide)).trans (W1_v3 m ρ c)
/-- The degree column is an input of the region: it leaves as it entered. -/
theorem W2_v8 : W2 m ρ c (Proc.devRef .tc main_v8) = degcol m c :=
  (W2_arr m ρ c 1).trans ((((dat0 (V1 m ρ) c).arrAt_in 1 rfl _).trans (A_eq0 (V1 m ρ) c 1)).trans (V1_v8 m ρ c))
theorem W2_arg2 : W2 m ρ c (Proc.devRef .tc main_arg2) = m ((c : Thread nD τ).loc main_arg2) := (W2_of_ne m ρ c main_arg2 (by decide)).trans (W1_arg2 m ρ c)
theorem W2_arg6 : W2 m ρ c (Proc.devRef .tc main_arg6) = m ((c : Thread nD τ).loc main_arg6) := (W2_of_ne m ρ c main_arg6 (by decide)).trans (W1_arg6 m ρ c)
theorem W2_arg7 : W2 m ρ c (Proc.devRef .tc main_arg7) = m ((c : Thread nD τ).loc main_arg7) := (W2_of_ne m ρ c main_arg7 (by decide)).trans (W1_arg7 m ρ c)
theorem W2_arg8 : W2 m ρ c (Proc.devRef .tc main_arg8) = m ((c : Thread nD τ).loc main_arg8) := (W2_of_ne m ρ c main_arg8 (by decide)).trans (W1_arg8 m ρ c)
theorem W2_arg9 : W2 m ρ c (Proc.devRef .tc main_arg9) = m ((c : Thread nD τ).loc main_arg9) := (W2_of_ne m ρ c main_arg9 (by decide)).trans (W1_arg9 m ρ c)
theorem W2_arg10 : W2 m ρ c (Proc.devRef .tc main_arg10) = m ((c : Thread nD τ).loc main_arg10) := (W2_of_ne m ρ c main_arg10 (by decide)).trans (W1_arg10 m ρ c)
theorem W2_arg11 : W2 m ρ c (Proc.devRef .tc main_arg11) = m ((c : Thread nD τ).loc main_arg11) := (W2_of_ne m ρ c main_arg11 (by decide)).trans (W1_arg11 m ρ c)
theorem W2_arg12 : W2 m ρ c (Proc.devRef .tc main_arg12) = m ((c : Thread nD τ).loc main_arg12) := (W2_of_ne m ρ c main_arg12 (by decide)).trans (W1_arg12 m ρ c)

/-! ## After the second stretch (the second layer's entry) -/

theorem V3_v30 : V3 m ρ c main_v30 = sums64 m c (hid m c) := by
  show StableHlo.after hostOps1 (W2 m ρ c) (Proc.devRef .tc main_v30) = _
  dsimp only [hostOps1]
  after_results_simp
  rw [W2_v3, W2_v20, W2_v1]
  rfl
theorem V3_v8 : V3 m ρ c main_v8 = degcol m c := by
  show StableHlo.after hostOps1 (W2 m ρ c) (Proc.devRef .tc main_v8) = _
  dsimp only [hostOps1]
  after_results_simp
  exact W2_v8 m ρ c
theorem V3_v20 : V3 m ρ c main_v20 = hid m c := by
  show StableHlo.after hostOps1 (W2 m ρ c) (Proc.devRef .tc main_v20) = _
  dsimp only [hostOps1]
  after_results_simp
  exact W2_v20 m ρ c
theorem V3_v31 : V3 m ρ c main_v31 = shapeCast S1x64 (m ((c : Thread nD τ).loc main_arg8)) shapeCasts_S64_S1x64 := by
  show StableHlo.after hostOps1 (W2 m ρ c) (Proc.devRef .tc main_v31) = _
  dsimp only [hostOps1]
  after_results_simp
  rw [W2_arg8]
  rfl
theorem V3_arg6 : V3 m ρ c main_arg6 = m ((c : Thread nD τ).loc main_arg6) := by
  show StableHlo.after hostOps1 (W2 m ρ c) (Proc.devRef .tc main_arg6) = _
  dsimp only [hostOps1]
  after_results_simp
  exact W2_arg6 m ρ c
theorem V3_arg7 : V3 m ρ c main_arg7 = m ((c : Thread nD τ).loc main_arg7) := by
  show StableHlo.after hostOps1 (W2 m ρ c) (Proc.devRef .tc main_arg7) = _
  dsimp only [hostOps1]
  after_results_simp
  exact W2_arg7 m ρ c
theorem W3_arg2 : W3 m ρ c (Proc.devRef .tc main_arg2) = m ((c : Thread nD τ).loc main_arg2) := by
  show StableHlo.after hostOps1 (W2 m ρ c) (Proc.devRef .tc main_arg2) = _
  dsimp only [hostOps1]
  after_results_simp
  exact W2_arg2 m ρ c
theorem W3_arg9 : W3 m ρ c (Proc.devRef .tc main_arg9) = m ((c : Thread nD τ).loc main_arg9) := by
  show StableHlo.after hostOps1 (W2 m ρ c) (Proc.devRef .tc main_arg9) = _
  dsimp only [hostOps1]
  after_results_simp
  exact W2_arg9 m ρ c
theorem W3_arg10 : W3 m ρ c (Proc.devRef .tc main_arg10) = m ((c : Thread nD τ).loc main_arg10) := by
  show StableHlo.after hostOps1 (W2 m ρ c) (Proc.devRef .tc main_arg10) = _
  dsimp only [hostOps1]
  after_results_simp
  exact W2_arg10 m ρ c
theorem W3_arg11 : W3 m ρ c (Proc.devRef .tc main_arg11) = m ((c : Thread nD τ).loc main_arg11) := by
  show StableHlo.after hostOps1 (W2 m ρ c) (Proc.devRef .tc main_arg11) = _
  dsimp only [hostOps1]
  after_results_simp
  exact W2_arg11 m ρ c
theorem W3_arg12 : W3 m ρ c (Proc.devRef .tc main_arg12) = m ((c : Thread nD τ).loc main_arg12) := by
  show StableHlo.after hostOps1 (W2 m ρ c) (Proc.devRef .tc main_arg12) = _
  dsimp only [hostOps1]
  after_results_simp
  exact W2_arg12 m ρ c

/-! ## After the second layer's region -/

/-- The second layer's output array holds the embeddings. -/
theorem W4_v32 : W4 m ρ c (Proc.devRef .tc main_v32) = emb m c := by
  refine (W4_arr m ρ c 6).trans ((Region1.array (V3 m ρ) c).trans ?_)
  show Sage.layer (V3 m ρ c main_v30) (V3 m ρ c main_v8) (V3 m ρ c main_v20) (V3 m ρ c main_arg6) (V3 m ρ c main_arg7) (V3 m ρ c main_v31) = _
  rw [V3_v30, V3_v8, V3_v20, V3_arg6, V3_arg7, V3_v31]
  rfl
theorem W4_arg2 : W4 m ρ c (Proc.devRef .tc main_arg2) = m ((c : Thread nD τ).loc main_arg2) := (W4_of_ne m ρ c main_arg2 (by decide)).trans (W3_arg2 m ρ c)
theorem W4_arg9 : W4 m ρ c (Proc.devRef .tc main_arg9) = m ((c : Thread nD τ).loc main_arg9) := (W4_of_ne m ρ c main_arg9 (by decide)).trans (W3_arg9 m ρ c)
theorem W4_arg10 : W4 m ρ c (Proc.devRef .tc main_arg10) = m ((c : Thread nD τ).loc main_arg10) := (W4_of_ne m ρ c main_arg10 (by decide)).trans (W3_arg10 m ρ c)
theorem W4_arg11 : W4 m ρ c (Proc.devRef .tc main_arg11) = m ((c : Thread nD τ).loc main_arg11) := (W4_of_ne m ρ c main_arg11 (by decide)).trans (W3_arg11 m ρ c)
theorem W4_arg12 : W4 m ρ c (Proc.devRef .tc main_arg12) = m ((c : Thread nD τ).loc main_arg12) := (W4_of_ne m ρ c main_arg12 (by decide)).trans (W3_arg12 m ρ c)

/-! ## After the third stretch (the decoder's entry) -/

theorem V5_v43 : V5 m ρ c main_v43 = emb0 m c := by
  show StableHlo.after hostOps2 (W4 m ρ c) (Proc.devRef .tc main_v43) = _
  dsimp only [hostOps2]
  after_results_simp
  rw [W4_v32, W4_arg2]
  rfl
theorem V5_v50 : V5 m ρ c main_v50 = emb1 m c := by
  show StableHlo.after hostOps2 (W4 m ρ c) (Proc.devRef .tc main_v50) = _
  dsimp only [hostOps2]
  after_results_simp
  rw [W4_v32, W4_arg2]
  rfl
theorem V5_v51 : V5 m ρ c main_v51 = extractStridedSlice S64x64 ![0, 0] (m ((c : Thread nD τ).loc main_arg9)) slices_S128x64_S64x64_0_0 := by
  show StableHlo.after hostOps2 (W4 m ρ c) (Proc.devRef .tc main_v51) = _
  dsimp only [hostOps2]
  after_results_simp
  rw [W4_arg9]
theorem V5_v52 : V5 m ρ c main_v52 = extractStridedSlice S64x64 ![64, 0] (m ((c : Thread nD τ).loc main_arg9)) slices_S128x64_S64x64_64_0 := by
  show StableHlo.after hostOps2 (W4 m ρ c) (Proc.devRef .tc main_v52) = _
  dsimp only [hostOps2]
  after_results_simp
  rw [W4_arg9]
theorem V5_v53 : V5 m ρ c main_v53 = shapeCast S1x64 (m ((c : Thread nD τ).loc main_arg10)) shapeCasts_S64_S1x64 := by
  show StableHlo.after hostOps2 (W4 m ρ c) (Proc.devRef .tc main_v53) = _
  dsimp only [hostOps2]
  after_results_simp
  rw [W4_arg10]
  rfl
theorem V5_v54 : V5 m ρ c main_v54 = shapeCast S1x1 (m ((c : Thread nD τ).loc main_arg12)) shapeCasts_S1_S1x1 := by
  show StableHlo.after hostOps2 (W4 m ρ c) (Proc.devRef .tc main_v54) = _
  dsimp only [hostOps2]
  after_results_simp
  rw [W4_arg12]
  rfl
theorem V5_arg11 : V5 m ρ c main_arg11 = m ((c : Thread nD τ).loc main_arg11) := by
  show StableHlo.after hostOps2 (W4 m ρ c) (Proc.devRef .tc main_arg11) = _
  dsimp only [hostOps2]
  after_results_simp
  exact W4_arg11 m ρ c

/-! ## After the decoder's region, and the last reshape -/

/-- The decoder's output array holds the pairs' scores as a column. -/
theorem W6_v55 : W6 m ρ c (Proc.devRef .tc main_v55) = scores m c := by
  refine (W6_arr m ρ c 7).trans ((Region2.array (V5 m ρ) c).trans ?_)
  show Sage.score (V5 m ρ c main_v43) (V5 m ρ c main_v50) (V5 m ρ c main_v51) (V5 m ρ c main_v52) (V5 m ρ c main_v53) (V5 m ρ c main_arg11) (V5 m ρ c main_v54) = _
  rw [V5_v43, V5_v50, V5_v51, V5_v52, V5_v53, V5_arg11, V5_v54]
  rfl

/-- At the last boundary the result buffer holds the scores as a vector. -/
theorem W7_v56 : W7 m ρ c (Proc.devRef .tc main_v56) = result m c := by
  show StableHlo.after hostOps3 (W6 m ρ c) (Proc.devRef .tc main_v56) = _
  dsimp only [hostOps3]
  after_results_simp
  rw [W6_v55]
  rfl

end Cert.KernelIdeal.Fold

end
-- ==== Proof.RefStages.lean ====
/-
  The reference's dense stages, in the reference's own spelling, are the specification's functions.

  The reference divides the neighbour sums by the degree VECTOR clamped below at one and repeated first into a column
  and then along the lanes; multiplies by the weights with host products; adds the bias VECTOR laid out as a row and
  repeated down the rows; and clamps with a zero repeated over the whole array.  Entry by entry this is
  `Cert.Sage.layerRelu` / `layer` at the degree column and the bias row.  Its decoder joins the two gathered
  embeddings side by side and multiplies the 128-wide rows by the whole first weight matrix: a sum over 128 terms,
  which is the sum of its first 64 terms (the first embedding against the matrix's top half) and its last 64 (the
  second against the bottom half) — `Cert.Sage.score` at the two halves.  Nothing is asked of the numbers: only the
  order of the additions matters, and it is the same on both sides.
-/
import proofs.«164268_j10651518894409_1_alg».proof.Proof.Gen.ReferenceIdeal
import proofs.«164268_j10651518894409_1_alg».proof.Proof.Layer
import proofs.«164268_j10651518894409_1_alg».proof.Proof.PlainDot
import Idealize.ShloMosaic.Lib.Pipeline.Value

noncomputable section

namespace Cert.ReferenceIdeal.Stages

open Cert.ReferenceIdeal Cert.ReferenceIdeal.Gen
open Idealize.ShloMosaic Idealize.ShloMosaic.ValueIdx
open scoped BigOperators

/-! ## Layout steps read at an entry -/

/-- A vector laid out as a column, at `(r, u)`. -/
theorem col_of_vec {a : ℕ} {α : Type} (d : (⟨1, ![a]⟩ : Shape).Idx → α)
    (h1 : (⟨1, ![a]⟩ : Shape).BroadcastsInDim ⟨2, ![a, 1]⟩ ![0]) (r : Fin a) (u : Fin 1) :
    broadcastInDim ⟨2, ![a, 1]⟩ ![0] h1 d (ix2 r u) = d (ix1 r) := by
  refine broadcastInDim_apply ![0] h1 d (ix2 r u) (ix1 r) fun ax => ?_
  match ax with
  | ⟨0, _⟩ =>
    show r.val = if a = 1 then 0 else r.val
    split
    · have := r.isLt; omega
    · rfl

/-- A column repeated along the lanes, at `(r, k)`. -/
theorem lanes_of_col {a K : ℕ} {α : Type} (v : (⟨2, ![a, 1]⟩ : Shape).Idx → α)
    (h2 : (⟨2, ![a, 1]⟩ : Shape).BroadcastsInDim ⟨2, ![a, K]⟩ ![0, 1]) (r : Fin a) (k : Fin K) :
    broadcastInDim ⟨2, ![a, K]⟩ ![0, 1] h2 v (ix2 r k) = v (ix2 r (0 : Fin 1)) := by
  refine broadcastInDim_apply ![0, 1] h2 v (ix2 r k) (ix2 r 0) fun ax => ?_
  match ax with
  | ⟨0, _⟩ =>
    show r.val = if a = 1 then 0 else r.val
    split
    · have := r.isLt; omega
    · rfl
  | ⟨1, _⟩ => rfl

/-- A scalar repeated over a whole array, at any index. -/
theorem splat {s : Shape} {α : Type} (x : (⟨0, ![]⟩ : Shape).Idx → α) (h0 : (⟨0, ![]⟩ : Shape).BroadcastsInDim s ![])
    (i : s.Idx) : broadcastInDim s ![] h0 x i = x ix0 :=
  broadcastInDim_apply ![] h0 x i ix0 (fun ax => ax.elim0)

/-- The reference's mean: sums over the clamped degree vector repeated into a column and along the lanes. -/
theorem mean_host {a K : ℕ} (S : FVec Ideal ⟨2, ![a, K]⟩ .f32) (d : FVec Ideal ⟨1, ![a]⟩ .f32)
    (h0 : (⟨0, ![]⟩ : Shape).BroadcastsInDim ⟨1, ![a]⟩ ![])
    (h1 : (⟨1, ![a]⟩ : Shape).BroadcastsInDim ⟨2, ![a, 1]⟩ ![0])
    (h2 : (⟨2, ![a, 1]⟩ : Shape).BroadcastsInDim ⟨2, ![a, K]⟩ ![0, 1]) (r : Fin a) (k : Fin K) :
    Host.divf S (broadcastInDim ⟨2, ![a, K]⟩ ![0, 1] h2 (broadcastInDim ⟨2, ![a, 1]⟩ ![0] h1
        (maximumf d (broadcastInDim ⟨1, ![a]⟩ ![] h0 (constant (F := Ideal) ⟨0, ![]⟩ .f32 0x3F800000#32))))) (ix2 r k)
      = Sage.mean S (broadcastInDim ⟨2, ![a, 1]⟩ ![0] h1 d) (ix2 r k) := by
  show Ideal.div (S (ix2 r k)) _ = Ideal.div (S (ix2 r k)) (max (broadcastInDim ⟨2, ![a, 1]⟩ ![0] h1 d (ix2 r 0)) Sage.one)
  rw [lanes_of_col, col_of_vec, col_of_vec, maximumf_apply, splat, constant_apply]

theorem plainA : Sage.Plain dot_S100000x128_S128x64_S100000x64_1_0_0_1_n_n := plain_dims dot_S100000x128_S128x64_S100000x64_1_0_0_1_n_n
theorem plainB : Sage.Plain dot_S100000x64_S64x64_S100000x64_1_0_0_1_n_n := plain_dims dot_S100000x64_S64x64_S100000x64_1_0_0_1_n_n
theorem plainC : Sage.Plain dot_S200000x128_S128x64_S200000x64_1_0_0_1_n_n := plain_dims dot_S200000x128_S128x64_S200000x64_1_0_0_1_n_n
theorem plainD : Sage.Plain dot_S200000x64_S64x1_S200000x1_1_0_0_1_n_n := plain_dims dot_S200000x64_S64x1_S200000x1_1_0_0_1_n_n

/-! ## The three stages -/

/-- The reference's first layer. -/
theorem layer1_eq (S : FVec Ideal S100000x128 .f32) (d : FVec Ideal S100000 .f32) (X : FVec Ideal S100000x128 .f32) (Wl Wr : FVec Ideal S128x64 .f32)
    (b : FVec Ideal S64 .f32) (hb : S64.ShapeCasts S1x64) :
    maximumf (addf (addf (Host.dotGeneral dot_S100000x128_S128x64_S100000x64_1_0_0_1_n_n none (Host.divf S (broadcastInDim S100000x128 ![0, 1] bcast_S100000x1_S100000x128_0_1 (broadcastInDim S100000x1 ![0] bcast_S100000_S100000x1_0 (maximumf d (broadcastInDim S100000 ![] bcast_S_S100000 (constant S_ .f32 0x3F800000#32)))))) Wl) (Host.dotGeneral dot_S100000x128_S128x64_S100000x64_1_0_0_1_n_n none X Wr)) (broadcastInDim S100000x64 ![0, 1] bcast_S1x64_S100000x64_0_1 (broadcastInDim S1x64 ![1] bcast_S64_S1x64_1 b))) (broadcastInDim S100000x64 ![] bcast_S_S100000x64 (constant S_ .f32 0x00000000#32))
      = Sage.layerRelu S (broadcastInDim S100000x1 ![0] bcast_S100000_S100000x1_0 d) X Wl Wr (shapeCast S1x64 b hb) := by
  funext i
  obtain ⟨r, q, rfl⟩ : ∃ (r : Fin 100000) (q : Fin 64), i = ix2 r q := ⟨i 0, i 1, eq_ix2 i⟩
  rw [maximumf_apply, splat, constant_apply, plainA.host_entry none _ _ _ _ _ _ _ (by decide) r q]
  refine congrArg (max · Sage.zero) ?_
  exact DualLinear.entry_congr _ _ _ _ _ _ _ _ _ _ r q r q (fun k => mean_host S d _ _ _ r k) (fun _ => rfl)
    (fun _ => rfl) (fun _ => rfl) (DualLinear.row_of_vector b hb q).symm

/-- The reference's second layer. -/
theorem layer2_eq (S : FVec Ideal S100000x64 .f32) (d : FVec Ideal S100000 .f32) (X : FVec Ideal S100000x64 .f32) (Wl Wr : FVec Ideal S64x64 .f32)
    (b : FVec Ideal S64 .f32) (hb : S64.ShapeCasts S1x64) :
    addf (addf (Host.dotGeneral dot_S100000x64_S64x64_S100000x64_1_0_0_1_n_n none (Host.divf S (broadcastInDim S100000x64 ![0, 1] bcast_S100000x1_S100000x64_0_1 (broadcastInDim S100000x1 ![0] bcast_S100000_S100000x1_0 (maximumf d (broadcastInDim S100000 ![] bcast_S_S100000 (constant S_ .f32 0x3F800000#32)))))) Wl) (Host.dotGeneral dot_S100000x64_S64x64_S100000x64_1_0_0_1_n_n none X Wr)) (broadcastInDim S100000x64 ![0, 1] bcast_S1x64_S100000x64_0_1 (broadcastInDim S1x64 ![1] bcast_S64_S1x64_1 b))
      = Sage.layer S (broadcastInDim S100000x1 ![0] bcast_S100000_S100000x1_0 d) X Wl Wr (shapeCast S1x64 b hb) := by
  funext i
  obtain ⟨r, q, rfl⟩ : ∃ (r : Fin 100000) (q : Fin 64), i = ix2 r q := ⟨i 0, i 1, eq_ix2 i⟩
  rw [plainB.host_entry none _ _ _ _ _ _ _ (by decide) r q]
  exact DualLinear.entry_congr _ _ _ _ _ _ _ _ _ _ r q r q (fun k => mean_host S d _ _ _ r k) (fun _ => rfl)
    (fun _ => rfl) (fun _ => rfl) (DualLinear.row_of_vector b hb q).symm

/-- The product of two embeddings joined side by side with the whole weight matrix: the first against the top half
    plus the second against the bottom half. -/
theorem joined_product (E0 E1 : FVec Ideal S200000x64 .f32) (Dw1 : FVec Ideal S128x64 .f32)
    (hs0 : S128x64.Slices ![0, 0] S64x64) (hs1 : S128x64.Slices ![64, 0] S64x64) (r : Fin 200000) (k : Fin 64) :
    (∑ j : Fin 128, concatenate S200000x128 1 [⟨S200000x64, E0⟩, ⟨S200000x64, E1⟩] concatenates_S200000x64_S200000x64_S200000x128_d1 (ix2 r j) * Dw1 (ix2 j k))
      = (∑ j : Fin 64, E0 (ix2 r j) * extractStridedSlice S64x64 ![0, 0] Dw1 hs0 (ix2 j k))
        + ∑ j : Fin 64, E1 (ix2 r j) * extractStridedSlice S64x64 ![64, 0] Dw1 hs1 (ix2 j k) := by
  refine (DualLinear.sum_split (K := 64) (K' := 64) _).trans ?_
  congr 1 <;> refine Finset.sum_congr rfl fun j _ => ?_
  · rw [concatenate_pair_apply_left (1 : Fin 2) E0 E1 _ (ix2 r (Fin.castAdd 64 j)) rfl (ix2 r j) (fun b => by
        match b with
        | ⟨0, _⟩ => rfl
        | ⟨1, _⟩ => rfl),
      extractStridedSlice_apply ![0, 0] Dw1 hs0 (ix2 j k) (ix2 (Fin.castAdd 64 j) k) (fun a => by
        match a with
        | ⟨0, _⟩ => show j.val = 0 + j.val; omega
        | ⟨1, _⟩ => show k.val = 0 + k.val; omega)]
  · rw [concatenate_pair_apply_right (1 : Fin 2) E0 E1 _ (ix2 r (Fin.natAdd 64 j)) rfl rfl (ix2 r j) (fun b hb => by
        match b with
        | ⟨0, _⟩ => rfl
        | ⟨1, _⟩ => exact absurd rfl hb) (by show j.val + 64 = 64 + j.val; omega),
      extractStridedSlice_apply ![64, 0] Dw1 hs1 (ix2 j k) (ix2 (Fin.natAdd 64 j) k) (fun a => by
        match a with
        | ⟨0, _⟩ => show 64 + j.val = 64 + j.val; rfl
        | ⟨1, _⟩ => show k.val = 0 + k.val; omega)]

/-- The reference's decoder. -/
theorem decode_eq (E0 E1 : FVec Ideal S200000x64 .f32) (Dw1 : FVec Ideal S128x64 .f32) (Db1 : FVec Ideal S64 .f32) (Dw2 : FVec Ideal S64x1 .f32) (Db2 : FVec Ideal S1 .f32)
    (hs0 : S128x64.Slices ![0, 0] S64x64) (hs1 : S128x64.Slices ![64, 0] S64x64) (hb1 : S64.ShapeCasts S1x64) (hb2 : S1.ShapeCasts S1x1) :
    addf (Host.dotGeneral dot_S200000x64_S64x1_S200000x1_1_0_0_1_n_n none (maximumf (addf (Host.dotGeneral dot_S200000x128_S128x64_S200000x64_1_0_0_1_n_n none (concatenate S200000x128 1 [⟨S200000x64, E0⟩, ⟨S200000x64, E1⟩] concatenates_S200000x64_S200000x64_S200000x128_d1) Dw1) (broadcastInDim S200000x64 ![0, 1] bcast_S1x64_S200000x64_0_1 (broadcastInDim S1x64 ![1] bcast_S64_S1x64_1 Db1))) (broadcastInDim S200000x64 ![] bcast_S_S200000x64 (constant S_ .f32 0x00000000#32))) Dw2) (broadcastInDim S200000x1 ![0, 1] bcast_S1x1_S200000x1_0_1 (broadcastInDim S1x1 ![1] bcast_S1_S1x1_1 Db2))
      = Sage.score E0 E1 (extractStridedSlice S64x64 ![0, 0] Dw1 hs0) (extractStridedSlice S64x64 ![64, 0] Dw1 hs1) (shapeCast S1x64 Db1 hb1) Dw2 (shapeCast S1x1 Db2 hb2) := by
  funext i
  obtain ⟨r, u, rfl⟩ : ∃ (r : Fin 200000) (u : Fin 1), i = ix2 r u := ⟨i 0, i 1, eq_ix2 i⟩
  obtain rfl : u = 0 := Subsingleton.elim _ _
  rw [addf_apply, plainD.dot_entry none _ _ r 0]
  show _ + _ = (∑ k : Fin 64, Sage.hidden E0 E1 (extractStridedSlice S64x64 ![0, 0] Dw1 hs0) (extractStridedSlice S64x64 ![64, 0] Dw1 hs1) (shapeCast S1x64 Db1 hb1) (ix2 r k) * Dw2 (ix2 k 0)) + shapeCast S1x1 Db2 hb2 (ix2 0 0)
  congr 1
  · refine Finset.sum_congr rfl fun k _ => ?_
    refine congrArg (· * Dw2 (ix2 k 0)) ?_
    rw [maximumf_apply, splat, constant_apply, addf_apply, plainC.dot_entry none _ _ r k, joined_product E0 E1 Dw1 hs0 hs1 r k,
      DualLinear.bias_entry Db1 _ _ (by decide) r k]
    refine congrArg (max · Sage.zero) ?_
    show _ = _ + _ + shapeCast S1x64 Db1 hb1 (ix2 0 k)
    rw [DualLinear.row_of_vector Db1 hb1 k]
  · rw [broadcastInDim_apply ![0, 1] _ _ (ix2 r (0 : Fin 1)) (ix2 (0 : Fin 1) (0 : Fin 1)) (fun ax => by
        match ax with
        | ⟨0, _⟩ => rfl
        | ⟨1, _⟩ => rfl),
      broadcastInDim_apply ![1] _ Db2 (ix2 (0 : Fin 1) (0 : Fin 1)) (ix1 (0 : Fin 1)) (fun ax => by
        match ax with
        | ⟨0, _⟩ => rfl),
      DualLinear.row_of_vector Db2 hb2 0]

end Cert.ReferenceIdeal.Stages

end
-- ==== Proof.Bridge.lean ====
/-
  The two programs compute one function.

  The reference's result is one nested term of its arguments: the same gathers and scatter-additions as the kernel's
  host stretches, around three dense stages spelt with host products.  On arguments that agree with the kernel's,
  each dense stage is the specification's function (`Cert.ReferenceIdeal.Stages`), which is what the kernel's
  regions leave (`Cert.KernelIdeal.Fold`); the operations around them are the same operations applied to the same
  values, so the two results are the same extended reals, entry by entry.
-/
import proofs.«164268_j10651518894409_1_alg».proof.Proof.Fold
import proofs.«164268_j10651518894409_1_alg».proof.Proof.RefStages
import proofs.«164268_j10651518894409_1_alg».proof.Proof.Gen.ReferenceIdeal.Run

set_option maxRecDepth 16384

noncomputable section

namespace Cert.Bridge

open Idealize.ShloMosaic Idealize.ShloMosaic.TcCoe Idealize.SL.Sem

/-- On memories that agree on the thirteen arguments, the reference's result term is the kernel's result. -/
theorem result_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) :
    (Cert.ReferenceIdeal.Value.res_main_v83 (F := Ideal) m' c : Cert.KernelIdeal.S200000.Idx → EReal)
      = Cert.KernelIdeal.Fold.result m c := by
  obtain ⟨h0, h1, h2, h3, h4, h5, h6, h7, h8, h9, h10, h11, h12⟩ := h
  unfold Cert.ReferenceIdeal.Value.res_main_v83
  rw [h0, h1, h2, h3, h4, h5, h6, h7, h8, h9, h10, h11, h12]
  rw [Cert.ReferenceIdeal.Stages.layer1_eq _ _ _ _ _ _ Cert.KernelIdeal.Gen.shapeCasts_S64_S1x64]
  rw [Cert.ReferenceIdeal.Stages.layer2_eq _ _ _ _ _ _ Cert.KernelIdeal.Gen.shapeCasts_S64_S1x64]
  rw [Cert.ReferenceIdeal.Stages.decode_eq _ _ _ _ _ _ Cert.KernelIdeal.Gen.slices_S128x64_S64x64_0_0
    Cert.KernelIdeal.Gen.slices_S128x64_S64x64_64_0 Cert.KernelIdeal.Gen.shapeCasts_S64_S1x64 Cert.KernelIdeal.Gen.shapeCasts_S1_S1x1]
  rfl

end Cert.Bridge

end
-- ==== Proof.lean ====
/-
  A link predictor on a graph: two mean-aggregation layers over the node features, then a two-layer decoder on the
  embeddings of the labelled node pairs.  Kernel and reference compute, per node `i` with in-neighbour sums `S` and
  in-degree `deg`,

      h₁(i) = max((S₀(i) / max(deg(i), 1)) · Wl₁ + x(i) · Wr₁ + b₁, 0),
      z(i)  =      (S₁(i) / max(deg(i), 1)) · Wl₂ + h₁(i) · Wr₂ + b₂,

  where `S₀`, `S₁` add each edge's source row of `x`, of `h₁`, at the edge's destination, and per labelled pair `(u, v)`

      score = max(z(u) · D₁[:64] + z(v) · D₁[64:] + c₁, 0) · D₂ + c₂.

  The kernel runs the three dense stages as row-blocked kernels between host gathers and scatter-additions; the
  reference writes everything with host operations, and in the decoder joins `z(u)`, `z(v)` side by side and multiplies
  by the whole of `D₁`.  On the extended reals a change of float format is the identity and a product is a finite sum,
  so the two sides differ only in how the decoder's 128-term sum is grouped: first 64 terms plus last 64.  Sums on the
  extended reals are commutative and associative without exception, so no finiteness of the inputs is used.

  • `Layer`: the three stages as functions of whole arrays, entry by entry.
  • `Payload`, `Region0/1/2`: each kernel body stores the stage's function of its blocks; the row blocks tile the
    output array, which therefore ends as the stage's function of the arrays the region found.
  • `KernelRun`, `Fold`: the kernel's run ends with the result buffer at the last boundary's contents, and those
    contents, boundary by boundary back to the launch memory, are `Fold.result`.
  • `RefStages`, `Bridge`: the reference's result term, on agreeing arguments, is `Fold.result`.
  The frames of the two kernel programs and the reference's run are the generated modules'.
-/
import proofs.«164268_j10651518894409_1_alg».proof.Defs
import proofs.«164268_j10651518894409_1_alg».proof.Proof.Gen.Kernel
import proofs.«164268_j10651518894409_1_alg».proof.Proof.Gen.Kernel.Frame
import proofs.«164268_j10651518894409_1_alg».proof.Proof.Gen.KernelIdeal
import proofs.«164268_j10651518894409_1_alg».proof.Proof.Gen.KernelIdeal.Frame
import proofs.«164268_j10651518894409_1_alg».proof.Proof.Gen.ReferenceIdeal
import proofs.«164268_j10651518894409_1_alg».proof.Proof.Gen.ReferenceIdeal.Run
import proofs.«164268_j10651518894409_1_alg».proof.Proof.Gen.Pre_finite_inputs
import proofs.«164268_j10651518894409_1_alg».proof.Proof.KernelRun
import proofs.«164268_j10651518894409_1_alg».proof.Proof.Fold
import proofs.«164268_j10651518894409_1_alg».proof.Proof.Bridge
import Idealize.ShloMosaic.Adequacy
import Idealize.ShloMosaic.Init

set_option maxRecDepth 16384

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
/-- The reference's frame is its run with the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing: the idealized kernel is the kernel's own text read on the extended reals. -/
theorem preserves : Cert.preserves_Kernel_KernelIdeal := trivial

/-- Both programs end with the pairs' scores: the kernel's result buffer at the last boundary's contents, which are
    `Fold.result` of the launch memory, and the reference's at its composed term, which on agreeing arguments is the same. -/
theorem algebraic : Cert.algebraic_KernelIdeal_ReferenceIdeal := by
  intro m ρ m' ρ' _ hagree
  refine ⟨fun c => Cert.KernelIdeal.Gen.W7 m ρ c (Proc.devRef .tc Cert.KernelIdeal.main_v56),
    Cert.KernelIdeal.Run.run_result (F := Ideal) m ρ, ?_⟩
  refine (θ_run Cert.ReferenceIdeal.defs _ _).mono (fun _ h c => ⟨(h c).1.trans ?_, (h c).2⟩)
    (Cert.ReferenceIdeal.Value.run (F := Ideal) m' ρ')
  exact (Cert.Bridge.result_eq m m' c (hagree c)).trans (Cert.KernelIdeal.Fold.W7_v56 m ρ c).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
